-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S17x300x400 : Shape := ⟨3, ![17, 300, 400]⟩
abbrev S17x5x38x50 : Shape := ⟨4, ![17, 5, 38, 50]⟩
abbrev S_ : Shape := ⟨0, ![]⟩

class Facts : Prop where
  bcast_S_S17x300x400 : S_.BroadcastsInDim S17x300x400 (![] : Fin 0 → Fin S17x300x400.rank)
  reducesTo_S17x300x400_S_d0_1_2 : S17x300x400.ReducesTo [0, 1, 2] S_
  h_S_ : 0 < S_.numel
  bcast_S_S17x5x38x50 : S_.BroadcastsInDim S17x5x38x50 (![] : Fin 0 → Fin S17x5x38x50.rank)
  reducesTo_S17x5x38x50_S_d0_1_2_3 : S17x5x38x50.ReducesTo [0, 1, 2, 3] S_

variable [Facts]

def fn {F : FTy → Type} [FloatOps F] (main_arg0 : FVec F S17x300x400 .f32) (main_arg1 : FVec F S17x5x38x50 .f32) : IVec S_ 1 :=
  let main_v0 : FVec F S17x300x400 .f32 := Host.absf main_arg0
  let main_cst : FVec F S_ .f32 := constant S_ .f32 0x7F800000#32
  let main_v1 : FVec F S17x300x400 .f32 := broadcastInDim S17x300x400 ![] bcast_S_S17x300x400 main_cst
  let main_v2 : IVec S17x300x400 1 := cmpf .olt main_v0 main_v1
  let main_c : IVec S_ 1 := constantI S_ 1 1#1
  let main_v3 : IVec S_ 1 := (fun x v => Host.reduce IntOp.andi x v reducesTo_S17x300x400_S_d0_1_2 h_S_) main_v2 main_c
  let main_v4 : FVec F S17x5x38x50 .f32 := Host.absf main_arg1
  let main_cst_0 : FVec F S_ .f32 := constant S_ .f32 0x7F800000#32
  let main_v5 : FVec F S17x5x38x50 .f32 := broadcastInDim S17x5x38x50 ![] bcast_S_S17x5x38x50 main_cst_0
  let main_v6 : IVec S17x5x38x50 1 := cmpf .olt main_v4 main_v5
  let main_c_1 : IVec S_ 1 := constantI S_ 1 1#1
  let main_v7 : IVec S_ 1 := (fun x v => Host.reduce IntOp.andi x v reducesTo_S17x5x38x50_S_d0_1_2_3 h_S_) main_v6 main_c_1
  let main_v8 : IVec S_ 1 := andi main_v3 main_v7
  main_v8
-- ==== Kernel.lean ====
abbrev S17x300x400 : Shape := ⟨3, ![17, 300, 400]⟩
abbrev S17x5x38x50 : Shape := ⟨4, ![17, 5, 38, 50]⟩
abbrev S_ : Shape := ⟨0, ![]⟩
abbrev S17x5x40x50 : Shape := ⟨4, ![17, 5, 40, 50]⟩
abbrev S17x40x50x27x27 : Shape := ⟨5, ![17, 40, 50, 27, 27]⟩
abbrev S1x5x8x50 : Shape := ⟨4, ![1, 5, 8, 50]⟩
abbrev S1x8x50x27x27 : Shape := ⟨5, ![1, 8, 50, 27, 27]⟩
abbrev S1x1x8x50 : Shape := ⟨4, ![1, 1, 8, 50]⟩
abbrev S8x50 : Shape := ⟨2, ![8, 50]⟩
abbrev S1x27 : Shape := ⟨2, ![1, 27]⟩
abbrev S27 : Shape := ⟨1, ![27]⟩
abbrev S8x50x1 : Shape := ⟨3, ![8, 50, 1]⟩
abbrev S1x1x27 : Shape := ⟨3, ![1, 1, 27]⟩
abbrev S8x50x27 : Shape := ⟨3, ![8, 50, 27]⟩
abbrev S8x50x27x1 : Shape := ⟨4, ![8, 50, 27, 1]⟩
abbrev S8x50x1x27 : Shape := ⟨4, ![8, 50, 1, 27]⟩
abbrev S8x50x27x27 : Shape := ⟨4, ![8, 50, 27, 27]⟩
abbrev S8x50x1x1 : Shape := ⟨4, ![8, 50, 1, 1]⟩
abbrev S17x38x50x27x27 : Shape := ⟨5, ![17, 38, 50, 27, 27]⟩
abbrev S17x1x38x50 : Shape := ⟨4, ![17, 1, 38, 50]⟩
abbrev S17x38x50 : Shape := ⟨3, ![17, 38, 50]⟩
abbrev S17x38x50x1 : Shape := ⟨4, ![17, 38, 50, 1]⟩
abbrev S1x1x1x27 : Shape := ⟨4, ![1, 1, 1, 27]⟩
abbrev S17x38x50x27 : Shape := ⟨4, ![17, 38, 50, 27]⟩
abbrev S17 : Shape := ⟨1, ![17]⟩
abbrev S17x1x1x1x1 : Shape := ⟨5, ![17, 1, 1, 1, 1]⟩
abbrev S17x38x50x27x1 : Shape := ⟨5, ![17, 38, 50, 27, 1]⟩
abbrev S17x38x50x1x27 : Shape := ⟨5, ![17, 38, 50, 1, 27]⟩
abbrev S2040000 : Shape := ⟨1, ![2040000]⟩
abbrev S23546700 : Shape := ⟨1, ![23546700]⟩
abbrev S23546700x1 : Shape := ⟨2, ![23546700, 1]⟩

abbrev nBuf : Space → Nat
  | .hbm => 82
  | .vmem => 4
  | .smem => 0
  | _ => 0

abbrev bufTy : (tb : Table) → Fin (tcTables nBuf tb) → BufTy
  | .hbm, ⟨0, _⟩ => ⟨S17x300x400, .f32⟩
  | .hbm, ⟨1, _⟩ => ⟨S17x5x38x50, .f32⟩
  | .hbm, ⟨2, _⟩ => ⟨S_, .i32⟩
  | .hbm, ⟨3, _⟩ => ⟨S_, .f32⟩
  | .hbm, ⟨4, _⟩ => ⟨S17x5x40x50, .f32⟩
  | .hbm, ⟨5, _⟩ => ⟨S17x40x50x27x27, .f32⟩
  | .hbm, ⟨6, _⟩ => ⟨S17x38x50x27x27, .f32⟩
  | .hbm, ⟨7, _⟩ => ⟨S17x1x38x50, .f32⟩
  | .hbm, ⟨8, _⟩ => ⟨S17x38x50, .f32⟩
  | .hbm, ⟨9, _⟩ => ⟨S17x1x38x50, .f32⟩
  | .hbm, ⟨10, _⟩ => ⟨S17x38x50, .f32⟩
  | .hbm, ⟨11, _⟩ => ⟨S_, .f32⟩
  | .hbm, ⟨12, _⟩ => ⟨S17x38x50, .f32⟩
  | .hbm, ⟨13, _⟩ => ⟨S17x38x50, .f32⟩
  | .hbm, ⟨14, _⟩ => ⟨S_, .f32⟩
  | .hbm, ⟨15, _⟩ => ⟨S17x38x50, .f32⟩
  | .hbm, ⟨16, _⟩ => ⟨S17x38x50, .f32⟩
  | .hbm, ⟨17, _⟩ => ⟨S17x38x50, .f32⟩
  | .hbm, ⟨18, _⟩ => ⟨S17x38x50, .i32⟩
  | .hbm, ⟨19, _⟩ => ⟨S17x38x50, .f32⟩
  | .hbm, ⟨20, _⟩ => ⟨S17x38x50, .i32⟩
  | .hbm, ⟨21, _⟩ => ⟨S27, .i32⟩
  | .hbm, ⟨22, _⟩ => ⟨S_, .i32⟩
  | .hbm, ⟨23, _⟩ => ⟨S27, .i32⟩
  | .hbm, ⟨24, _⟩ => ⟨S27, .i32⟩
  | .hbm, ⟨25, _⟩ => ⟨S17x38x50x1, .i32⟩
  | .hbm, ⟨26, _⟩ => ⟨S1x1x1x27, .i32⟩
  | .hbm, ⟨27, _⟩ => ⟨S17x38x50x27, .i32⟩
  | .hbm, ⟨28, _⟩ => ⟨S17x38x50x27, .i32⟩
  | .hbm, ⟨29, _⟩ => ⟨S17x38x50x27, .i32⟩
  | .hbm, ⟨30, _⟩ => ⟨S17x38x50x1, .i32⟩
  | .hbm, ⟨31, _⟩ => ⟨S1x1x1x27, .i32⟩
  | .hbm, ⟨32, _⟩ => ⟨S17x38x50x27, .i32⟩
  | .hbm, ⟨33, _⟩ => ⟨S17x38x50x27, .i32⟩
  | .hbm, ⟨34, _⟩ => ⟨S17x38x50x27, .i32⟩
  | .hbm, ⟨35, _⟩ => ⟨S17, .i32⟩
  | .hbm, ⟨36, _⟩ => ⟨S17x1x1x1x1, .i32⟩
  | .hbm, ⟨37, _⟩ => ⟨S17x38x50x27x1, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S17x38x50x27x1, .i32⟩
  | .hbm, ⟨42, _⟩ => ⟨S17x38x50x27x1, .i32⟩
  | .hbm, ⟨43, _⟩ => ⟨S_, .i32⟩
  | .hbm, ⟨44, _⟩ => ⟨S17x38x50x27x1, .i32⟩
  | .hbm, ⟨45, _⟩ => ⟨S17x38x50x27x1, .i32⟩
  | .hbm, ⟨46, _⟩ => ⟨S17x38x50x1x27, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S17x38x50x1x27, .i32⟩
  | .hbm, ⟨51, _⟩ => ⟨S17x38x50x1x27, .i32⟩
  | .hbm, ⟨52, _⟩ => ⟨S_, .i32⟩
  | .hbm, ⟨53, _⟩ => ⟨S17x38x50x1x27, .i32⟩
  | .hbm, ⟨54, _⟩ => ⟨S17x38x50x1x27, .i32⟩
  | .hbm, ⟨55, _⟩ => ⟨S_, .i32⟩
  | .hbm, ⟨56, _⟩ => ⟨S17x1x1x1x1, .i32⟩
  | .hbm, ⟨57, _⟩ => ⟨S17x1x1x1x1, .i32⟩
  | .hbm, ⟨58, _⟩ => ⟨S17x38x50x27x1, .i32⟩
  | .hbm, ⟨59, _⟩ => ⟨S17x38x50x27x1, .i32⟩
  | .hbm, ⟨60, _⟩ => ⟨S_, .i32⟩
  | .hbm, ⟨61, _⟩ => ⟨S17x38x50x27x1, .i32⟩
  | .hbm, ⟨62, _⟩ => ⟨S17x38x50x27x1, .i32⟩
  | .hbm, ⟨63, _⟩ => ⟨S17x38x50x27x27, .i32⟩
  | .hbm, ⟨64, _⟩ => ⟨S17x38x50x27x27, .i32⟩
  | .hbm, ⟨65, _⟩ => ⟨S17x38x50x27x27, .i32⟩
  | .hbm, ⟨66, _⟩ => ⟨S2040000, .f32⟩
  | .hbm, ⟨67, _⟩ => ⟨S23546700, .i32⟩
  | .hbm, ⟨68, _⟩ => ⟨S23546700, .f32⟩
  | .hbm, ⟨69, _⟩ => ⟨S_, .i32⟩
  | .hbm, ⟨70, _⟩ => ⟨S23546700, .i32⟩
  | .hbm, ⟨71, _⟩ => ⟨S23546700, .i1⟩
  | .hbm, ⟨72, _⟩ => ⟨S_, .i32⟩
  | .hbm, ⟨73, _⟩ => ⟨S23546700, .i32⟩
  | .hbm, ⟨74, _⟩ => ⟨S23546700, .i32⟩
  | .hbm, ⟨75, _⟩ => ⟨S23546700, .i32⟩
  | .hbm, ⟨76, _⟩ => ⟨S23546700x1, .i32⟩
  | .hbm, ⟨77, _⟩ => ⟨S2040000, .f32⟩
  | .hbm, ⟨78, _⟩ => ⟨S17x300x400, .f32⟩
  | .hbm, ⟨79, _⟩ => ⟨S_, .f32⟩
  | .hbm, ⟨80, _⟩ => ⟨S17x300x400, .f32⟩
  | .hbm, ⟨81, _⟩ => ⟨S17x300x400, .f32⟩
  | .local _ .vmem, ⟨0, _⟩ => ⟨S1x5x8x50, .f32⟩
  | .local _ .vmem, ⟨1, _⟩ => ⟨S1x5x8x50, .f32⟩
  | .local _ .vmem, ⟨2, _⟩ => ⟨S1x8x50x27x27, .f32⟩
  | .local _ .vmem, ⟨3, _⟩ => ⟨S1x8x50x27x27, .f32⟩
  | _, _ => ⟨S17x300x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_c_3 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_c_5 : Ref sig .tc := ⟨.hbm, 48, rfl⟩
abbrev main_call4_v0 : Ref sig .tc := ⟨.hbm, 49, rfl⟩
abbrev main_call4_v1 : Ref sig .tc := ⟨.hbm, 50, rfl⟩
abbrev main_call4_v2 : Ref sig .tc := ⟨.hbm, 51, rfl⟩
abbrev main_call4_v3 : Ref sig .tc := ⟨.hbm, 52, rfl⟩
abbrev main_call4_v4 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![17, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x5x8x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x50x27x27 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  pads_S17x5x38x50_S17x5x40x50_000_000_020_000 : S17x5x38x50.Pads (![0, 0, 0, 0] : Fin 4 → Nat) ![0, 0, 2, 0] ![0, 0, 0, 0] S17x5x40x50
  h_S_ : 0 < S_.numel
  inb_S1x5x8x50_S1x1x8x50_0_0_0_0 : ∀ a, (![0, 0, 0, 0] : Fin 4 → Nat) a + S1x1x8x50.size a ≤ S1x5x8x50.size a
  h_S1x1x8x50 : 0 < S1x1x8x50.numel
  shapeCasts_S1x1x8x50_S8x50 : S1x1x8x50.ShapeCasts S8x50
  inb_S1x5x8x50_S1x1x8x50_0_1_0_0 : ∀ a, (![0, 1, 0, 0] : Fin 4 → Nat) a + S1x1x8x50.size a ≤ S1x5x8x50.size a
  inb_S1x5x8x50_S1x1x8x50_0_2_0_0 : ∀ a, (![0, 2, 0, 0] : Fin 4 → Nat) a + S1x1x8x50.size a ≤ S1x5x8x50.size a
  inb_S1x5x8x50_S1x1x8x50_0_4_0_0 : ∀ a, (![0, 4, 0, 0] : Fin 4 → Nat) a + S1x1x8x50.size a ≤ S1x5x8x50.size a
  natLt_1_32 : 1 < 32
  iota_S1x27_d1_w32 : S1x27.Iotas .tc 32 [1]
  shapeCasts_S1x27_S27 : S1x27.ShapeCasts S27
  shapeCasts_S8x50_S8x50x1 : S8x50.ShapeCasts S8x50x1
  shapeCasts_S27_S1x1x27 : S27.ShapeCasts S1x1x27
  broadcasts_S8x50x1_S8x50x27 : S8x50x1.Broadcasts S8x50x27
  broadcasts_S1x1x27_S8x50x27 : S1x1x27.Broadcasts S8x50x27
  shapeCasts_S8x50x27_S8x50x27x1 : S8x50x27.ShapeCasts S8x50x27x1
  shapeCasts_S8x50x27_S8x50x1x27 : S8x50x27.ShapeCasts S8x50x1x27
  broadcasts_S8x50x27x1_S8x50x27x27 : S8x50x27x1.Broadcasts S8x50x27x27
  broadcasts_S8x50x1x27_S8x50x27x27 : S8x50x1x27.Broadcasts S8x50x27x27
  shapeCasts_S8x50_S8x50x1x1 : S8x50.ShapeCasts S8x50x1x1
  broadcasts_S8x50x1x1_S8x50x27x27 : S8x50x1x1.Broadcasts S8x50x27x27
  inb_S1x8x50x27x27_S1x8x50x27x27_0_0_0_0_0 : ∀ a, (![0, 0, 0, 0, 0] : Fin 5 → Nat) a + S1x8x50x27x27.size a ≤ S1x8x50x27x27.size a
  h_S1x8x50x27x27 : 0 < S1x8x50x27x27.numel
  shapeCasts_S1x8x50x27x27_S8x50x27x27 : S1x8x50x27x27.ShapeCasts S8x50x27x27
  shapeCasts_S8x50x27x27_S1x8x50x27x27 : S8x50x27x27.ShapeCasts S1x8x50x27x27
  slices_S17x40x50x27x27_S17x38x50x27x27_0_0_0_0_0 : S17x40x50x27x27.Slices ![0, 0, 0, 0, 0] S17x38x50x27x27
  slices_S17x5x38x50_S17x1x38x50_0_1_0_0 : S17x5x38x50.Slices ![0, 1, 0, 0] S17x1x38x50
  shapeCasts_S17x1x38x50_S17x38x50 : S17x1x38x50.ShapeCasts S17x38x50
  slices_S17x5x38x50_S17x1x38x50_0_2_0_0 : S17x5x38x50.Slices ![0, 2, 0, 0] S17x1x38x50
  bcast_S_S17x38x50 : S_.BroadcastsInDim S17x38x50 (![] : Fin 0 → Fin S17x38x50.rank)
  bcast_S_S27 : S_.BroadcastsInDim S27 (![] : Fin 0 → Fin S27.rank)
  bcast_S17x38x50_S17x38x50x1_0_1_2 : S17x38x50.BroadcastsInDim S17x38x50x1 (![0, 1, 2] : Fin 3 → Fin S17x38x50x1.rank)
  bcast_S27_S1x1x1x27_3 : S27.BroadcastsInDim S1x1x1x27 (![3] : Fin 1 → Fin S1x1x1x27.rank)
  bcast_S17x38x50x1_S17x38x50x27_0_1_2_3 : S17x38x50x1.BroadcastsInDim S17x38x50x27 (![0, 1, 2, 3] : Fin 4 → Fin S17x38x50x27.rank)
  bcast_S1x1x1x27_S17x38x50x27_0_1_2_3 : S1x1x1x27.BroadcastsInDim S17x38x50x27 (![0, 1, 2, 3] : Fin 4 → Fin S17x38x50x27.rank)
  bcast_S17_S17x1x1x1x1_0 : S17.BroadcastsInDim S17x1x1x1x1 (![0] : Fin 1 → Fin S17x1x1x1x1.rank)
  bcast_S17x38x50x27_S17x38x50x27x1_0_1_2_3 : S17x38x50x27.BroadcastsInDim S17x38x50x27x1 (![0, 1, 2, 3] : Fin 4 → Fin S17x38x50x27x1.rank)
  bcast_S_S17x38x50x27x1 : S_.BroadcastsInDim S17x38x50x27x1 (![] : Fin 0 → Fin S17x38x50x27x1.rank)
  bcast_S17x38x50x27_S17x38x50x1x27_0_1_2_4 : S17x38x50x27.BroadcastsInDim S17x38x50x1x27 (![0, 1, 2, 4] : Fin 4 → Fin S17x38x50x1x27.rank)
  bcast_S_S17x38x50x1x27 : S_.BroadcastsInDim S17x38x50x1x27 (![] : Fin 0 → Fin S17x38x50x1x27.rank)
  bcast_S_S17x1x1x1x1 : S_.BroadcastsInDim S17x1x1x1x1 (![] : Fin 0 → Fin S17x1x1x1x1.rank)
  bcast_S17x1x1x1x1_S17x38x50x27x1_0_1_2_3_4 : S17x1x1x1x1.BroadcastsInDim S17x38x50x27x1 (![0, 1, 2, 3, 4] : Fin 5 → Fin S17x38x50x27x1.rank)
  bcast_S17x38x50x27x1_S17x38x50x27x27_0_1_2_3_4 : S17x38x50x27x1.BroadcastsInDim S17x38x50x27x27 (![0, 1, 2, 3, 4] : Fin 5 → Fin S17x38x50x27x27.rank)
  bcast_S17x38x50x1x27_S17x38x50x27x27_0_1_2_3_4 : S17x38x50x1x27.BroadcastsInDim S17x38x50x27x27 (![0, 1, 2, 3, 4] : Fin 5 → Fin S17x38x50x27x27.rank)
  shapeCasts_S17x300x400_S2040000 : S17x300x400.ShapeCasts S2040000
  shapeCasts_S17x38x50x27x27_S23546700 : S17x38x50x27x27.ShapeCasts S23546700
  bcast_S_S23546700 : S_.BroadcastsInDim S23546700 (![] : Fin 0 → Fin S23546700.rank)
  bcast_S23546700_S23546700x1_0 : S23546700.BroadcastsInDim S23546700x1 (![0] : Fin 1 → Fin S23546700x1.rank)
  shapeCasts_S2040000_S17x300x400 : S2040000.ShapeCasts S17x300x400
  bcast_S_S17x300x400 : S_.BroadcastsInDim S17x300x400 (![] : Fin 0 → Fin S17x300x400.rank)
  scatter_S2040000_S23546700x1_S23546700_n_0_0_1_wf : ScatterDims.WF S2040000 S23546700x1 S23546700 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5x8x50.size a ≤ S17x5x40x50.size a
  hwx0_0 : ∀ i : grid0.Coords, EltTy.bits .f32 = 32 ∨ (Rect.block (s := S17x5x40x50) S1x5x8x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x50x27x27.size a ≤ S17x40x50x27x27.size a
  hwx0_1 : ∀ i : grid0.Coords, EltTy.bits .f32 = 32 ∨ (Rect.block (s := S17x40x50x27x27) S1x8x50x27x27.size (cc0_transform_1 i) (hinb0_1 i)).WholeWords (EltTy.packing .f32)

variable [Facts₀]

def scatter_S2040000_S23546700x1_S23546700_n_0_0_1 : ScatterDims S2040000 S23546700x1 S23546700 where
  updateWindowDims := []
  insertedWindowDims := [0]
  scatterDimsToOperandDims := [0]
  indexVectorDim := 1
  wf := scatter_S2040000_S23546700x1_S23546700_n_0_0_1_wf

abbrev win0_0 : Pipeline.Window sig grid0 :=
  Pipeline.Window.ofSpec (Memref.whole main_v0) S1x5x8x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x50x27x27.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S17x300x400 : Shape := ⟨3, ![17, 300, 400]⟩
abbrev S17x5x38x50 : Shape := ⟨4, ![17, 5, 38, 50]⟩
abbrev S17x1x38x50 : Shape := ⟨4, ![17, 1, 38, 50]⟩
abbrev S17x38x50 : Shape := ⟨3, ![17, 38, 50]⟩
abbrev S_ : Shape := ⟨0, ![]⟩
abbrev S27 : Shape := ⟨1, ![27]⟩
abbrev S17x38x50x1 : Shape := ⟨4, ![17, 38, 50, 1]⟩
abbrev S1x1x1x27 : Shape := ⟨4, ![1, 1, 1, 27]⟩
abbrev S17x38x50x27 : Shape := ⟨4, ![17, 38, 50, 27]⟩
abbrev S17x38x50x27x1 : Shape := ⟨5, ![17, 38, 50, 27, 1]⟩
abbrev S17x38x50x1x27 : Shape := ⟨5, ![17, 38, 50, 1, 27]⟩
abbrev S17x38x50x27x27 : Shape := ⟨5, ![17, 38, 50, 27, 27]⟩
abbrev S17x38x50x1x1 : Shape := ⟨5, ![17, 38, 50, 1, 1]⟩
abbrev S17 : Shape := ⟨1, ![17]⟩
abbrev S17x1x1x1x1 : Shape := ⟨5, ![17, 1, 1, 1, 1]⟩
abbrev S2040000 : Shape := ⟨1, ![2040000]⟩
abbrev S23546700 : Shape := ⟨1, ![23546700]⟩
abbrev S23546700x1 : Shape := ⟨2, ![23546700, 1]⟩

abbrev nBuf : Space → Nat
  | .hbm => 187
  | .vmem => 0
  | .smem => 0
  | _ => 0

abbrev hbmTy0_0 (i : Nat) : BufTy := match i % 128 with
  | 0 => ⟨S17x300x400, .f32⟩
  | 1 => ⟨S17x5x38x50, .f32⟩
  | 2 => ⟨S17x1x38x50, .f32⟩
  | 3 => ⟨S17x38x50, .f32⟩
  | 4 => ⟨S17x1x38x50, .f32⟩
  | 5 => ⟨S17x38x50, .f32⟩
  | 6 => ⟨S_, .f32⟩
  | 7 => ⟨S17x38x50, .f32⟩
  | 8 => ⟨S17x38x50, .f32⟩
  | 9 => ⟨S17x1x38x50, .f32⟩
  | 10 => ⟨S17x38x50, .f32⟩
  | 11 => ⟨S_, .f32⟩
  | 12 => ⟨S17x38x50, .f32⟩
  | 13 => ⟨S17x38x50, .f32⟩
  | 14 => ⟨S17x1x38x50, .f32⟩
  | 15 => ⟨S17x38x50, .f32⟩
  | 16 => ⟨S_, .f32⟩
  | 17 => ⟨S17x38x50, .f32⟩
  | 18 => ⟨S17x38x50, .f32⟩
  | 19 => ⟨S_, .f32⟩
  | 20 => ⟨S17x38x50, .f32⟩
  | 21 => ⟨S17x38x50, .f32⟩
  | 22 => ⟨S_, .f32⟩
  | 23 => ⟨S17x38x50, .f32⟩
  | 24 => ⟨S17x38x50, .f32⟩
  | 25 => ⟨S_, .f32⟩
  | 26 => ⟨S17x38x50, .f32⟩
  | 27 => ⟨S17x38x50, .f32⟩
  | 28 => ⟨S_, .f32⟩
  | 29 => ⟨S17x38x50, .f32⟩
  | 30 => ⟨S17x38x50, .f32⟩
  | 31 => ⟨S_, .f32⟩
  | 32 => ⟨S17x38x50, .f32⟩
  | 33 => ⟨S17x38x50, .i1⟩
  | 34 => ⟨S_, .f32⟩
  | 35 => ⟨S17x38x50, .f32⟩
  | 36 => ⟨S17x38x50, .f32⟩
  | 37 => ⟨S_, .f32⟩
  | 38 => ⟨S17x38x50, .f32⟩
  | 39 => ⟨S17x38x50, .i1⟩
  | 40 => ⟨S17x38x50, .i1⟩
  | 41 => ⟨S17x38x50, .f32⟩
  | 42 => ⟨S17x38x50, .i32⟩
  | 43 => ⟨S17x38x50, .f32⟩
  | 44 => ⟨S17x38x50, .i32⟩
  | 45 => ⟨S27, .i32⟩
  | 46 => ⟨S_, .i32⟩
  | 47 => ⟨S27, .i32⟩
  | 48 => ⟨S27, .i32⟩
  | 49 => ⟨S17x38x50x1, .i32⟩
  | 50 => ⟨S1x1x1x27, .i32⟩
  | 51 => ⟨S17x38x50x27, .i32⟩
  | 52 => ⟨S17x38x50x27, .i32⟩
  | 53 => ⟨S17x38x50x27, .i32⟩
  | 54 => ⟨S17x38x50x1, .i32⟩
  | 55 => ⟨S1x1x1x27, .i32⟩
  | 56 => ⟨S17x38x50x27, .i32⟩
  | 57 => ⟨S17x38x50x27, .i32⟩
  | 58 => ⟨S17x38x50x27, .i32⟩
  | 59 => ⟨S17x38x50x27, .f32⟩
  | 60 => ⟨S17x38x50x1, .f32⟩
  | 61 => ⟨S17x38x50x27, .f32⟩
  | 62 => ⟨S17x38x50x27, .f32⟩
  | 63 => ⟨S17x38x50x27, .f32⟩
  | 64 => ⟨S17x38x50x27, .f32⟩
  | 65 => ⟨S17x38x50x1, .f32⟩
  | 66 => ⟨S17x38x50x27, .f32⟩
  | 67 => ⟨S17x38x50x27, .f32⟩
  | 68 => ⟨S17x38x50x27, .f32⟩
  | 69 => ⟨S17x38x50x27x1, .f32⟩
  | 70 => ⟨S17x38x50x1x27, .f32⟩
  | 71 => ⟨S17x38x50x27x27, .f32⟩
  | 72 => ⟨S17x38x50x27x27, .f32⟩
  | 73 => ⟨S17x38x50x27x27, .f32⟩
  | 74 => ⟨S17x38x50, .f32⟩
  | 75 => ⟨S17x38x50x1x1, .f32⟩
  | 76 => ⟨S_, .f32⟩
  | 77 => ⟨S17x38x50x1x1, .f32⟩
  | 78 => ⟨S17x38x50x1x1, .f32⟩
  | 79 => ⟨S_, .i32⟩
  | 80 => ⟨S17x38x50x27, .i32⟩
  | 81 => ⟨S17x38x50x27, .i1⟩
  | 82 => ⟨S_, .i32⟩
  | 83 => ⟨S17x38x50x27, .i32⟩
  | 84 => ⟨S17x38x50x27, .i1⟩
  | 85 => ⟨S17x38x50x27, .i1⟩
  | 86 => ⟨S17x38x50x27x1, .i1⟩
  | 87 => ⟨S_, .i32⟩
  | 88 => ⟨S17x38x50x27, .i32⟩
  | 89 => ⟨S17x38x50x27, .i1⟩
  | 90 => ⟨S_, .i32⟩
  | 91 => ⟨S17x38x50x27, .i32⟩
  | 92 => ⟨S17x38x50x27, .i1⟩
  | 93 => ⟨S17x38x50x27, .i1⟩
  | 94 => ⟨S17x38x50x1x27, .i1⟩
  | 95 => ⟨S17x38x50x27x27, .i1⟩
  | 96 => ⟨S17x38x50x27x27, .i1⟩
  | 97 => ⟨S17x38x50x27x27, .i1⟩
  | 98 => ⟨S17x38x50x27x27, .f32⟩
  | 99 => ⟨S17x38x50x27x27, .i1⟩
  | 100 => ⟨S17x38x50x27x27, .i1⟩
  | 101 => ⟨S17x38x50x1x1, .i1⟩
  | 102 => ⟨S17x38x50x27x27, .i1⟩
  | 103 => ⟨S17x38x50x27x27, .i1⟩
  | 104 => ⟨S17x38x50x27x1, .f32⟩
  | 105 => ⟨S_, .f32⟩
  | 106 => ⟨S17x38x50x27x1, .f32⟩
  | 107 => ⟨S17x38x50x27x1, .i1⟩
  | 108 => ⟨S17x38x50x1x27, .f32⟩
  | 109 => ⟨S_, .f32⟩
  | 110 => ⟨S17x38x50x1x27, .f32⟩
  | 111 => ⟨S17x38x50x1x27, .i1⟩
  | 112 => ⟨S17x38x50x27x27, .i1⟩
  | 113 => ⟨S17x38x50x27x27, .i1⟩
  | 114 => ⟨S17x38x50x27x27, .i1⟩
  | 115 => ⟨S_, .f32⟩
  | 116 => ⟨S17x38x50x27x27, .f32⟩
  | 117 => ⟨S17x38x50x27x27, .f32⟩
  | 118 => ⟨S17x38x50x27x27, .f32⟩
  | 119 => ⟨S17x38x50x27x27, .f32⟩
  | 120 => ⟨S_, .f32⟩
  | 121 => ⟨S17x38x50x27x27, .f32⟩
  | 122 => ⟨S17x38x50x27x27, .f32⟩
  | 123 => ⟨S_, .f32⟩
  | 124 => ⟨S17x38x50x27x27, .f32⟩
  | 125 => ⟨S17x38x50x27x27, .f32⟩
  | 126 => ⟨S17x38x50x27x27, .f32⟩
  | 127 => ⟨S17x38x50x27x27, .f32⟩
  | _ => ⟨S17x300x400, .f32⟩

abbrev hbmTy0_1 (i : Nat) : BufTy := match i % 128 with
  | 0 => ⟨S17x38x50x27x27, .f32⟩
  | 1 => ⟨S_, .f32⟩
  | 2 => ⟨S_, .f32⟩
  | 3 => ⟨S17x38x50x27x27, .f32⟩
  | 4 => ⟨S17x38x50x27x27, .f32⟩
  | 5 => ⟨S17x38x50x1x1, .f32⟩
  | 6 => ⟨S17x38x50x27x27, .f32⟩
  | 7 => ⟨S17x38x50x27x27, .f32⟩
  | 8 => ⟨S_, .f32⟩
  | 9 => ⟨S_, .f32⟩
  | 10 => ⟨S17x38x50x27x27, .f32⟩
  | 11 => ⟨S17x38x50x27x27, .f32⟩
  | 12 => ⟨S17, .i32⟩
  | 13 => ⟨S17x1x1x1x1, .i32⟩
  | 14 => ⟨S17x38x50x27x1, .i32⟩
  | 15 => ⟨S_, .i32⟩
  | 16 => ⟨S_, .i32⟩
  | 17 => ⟨S_, .i32⟩
  | 18 => ⟨S17x38x50x27x1, .i32⟩
  | 19 => ⟨S17x38x50x27x1, .i32⟩
  | 20 => ⟨S_, .i32⟩
  | 21 => ⟨S17x38x50x27x1, .i32⟩
  | 22 => ⟨S17x38x50x27x1, .i32⟩
  | 23 => ⟨S17x38x50x1x27, .i32⟩
  | 24 => ⟨S_, .i32⟩
  | 25 => ⟨S_, .i32⟩
  | 26 => ⟨S_, .i32⟩
  | 27 => ⟨S17x38x50x1x27, .i32⟩
  | 28 => ⟨S17x38x50x1x27, .i32⟩
  | 29 => ⟨S_, .i32⟩
  | 30 => ⟨S17x38x50x1x27, .i32⟩
  | 31 => ⟨S17x38x50x1x27, .i32⟩
  | 32 => ⟨S_, .i32⟩
  | 33 => ⟨S17x1x1x1x1, .i32⟩
  | 34 => ⟨S17x1x1x1x1, .i32⟩
  | 35 => ⟨S17x38x50x27x1, .i32⟩
  | 36 => ⟨S17x38x50x27x1, .i32⟩
  | 37 => ⟨S_, .i32⟩
  | 38 => ⟨S17x38x50x27x1, .i32⟩
  | 39 => ⟨S17x38x50x27x1, .i32⟩
  | 40 => ⟨S17x38x50x27x27, .i32⟩
  | 41 => ⟨S17x38x50x27x27, .i32⟩
  | 42 => ⟨S17x38x50x27x27, .i32⟩
  | 43 => ⟨S2040000, .f32⟩
  | 44 => ⟨S23546700, .i32⟩
  | 45 => ⟨S23546700, .f32⟩
  | 46 => ⟨S_, .i32⟩
  | 47 => ⟨S23546700, .i32⟩
  | 48 => ⟨S23546700, .i1⟩
  | 49 => ⟨S_, .i32⟩
  | 50 => ⟨S23546700, .i32⟩
  | 51 => ⟨S23546700, .i32⟩
  | 52 => ⟨S23546700, .i32⟩
  | 53 => ⟨S23546700x1, .i32⟩
  | 54 => ⟨S2040000, .f32⟩
  | 55 => ⟨S17x300x400, .f32⟩
  | 56 => ⟨S_, .f32⟩
  | 57 => ⟨S17x300x400, .f32⟩
  | 58 => ⟨S17x300x400, .f32⟩
  | _ => ⟨S17x300x400, .f32⟩

abbrev hbmTy (i : Nat) : BufTy := match i / 128 with
  | 0 => hbmTy0_0 i
  | 1 => hbmTy0_1 i
  | _ => ⟨S17x300x400, .f32⟩

abbrev bufTy : (tb : Table) → Fin (tcTables nBuf tb) → BufTy
  | .hbm, ⟨i, _⟩ => hbmTy i
  | _, _ => ⟨S17x300x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_9 : Ref sig .tc := ⟨.hbm, 76, rfl⟩
abbrev main_v63 : Ref sig .tc := ⟨.hbm, 77, rfl⟩
abbrev main_v64 : Ref sig .tc := ⟨.hbm, 78, rfl⟩
abbrev main_c_10 : Ref sig .tc := ⟨.hbm, 79, rfl⟩
abbrev main_v65 : Ref sig .tc := ⟨.hbm, 80, rfl⟩
abbrev main_v66 : Ref sig .tc := ⟨.hbm, 81, rfl⟩
abbrev main_c_11 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_c_12 : Ref sig .tc := ⟨.hbm, 87, rfl⟩
abbrev main_v71 : Ref sig .tc := ⟨.hbm, 88, rfl⟩
abbrev main_v72 : Ref sig .tc := ⟨.hbm, 89, rfl⟩
abbrev main_c_13 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_14 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_15 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_16 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_17 : Ref sig .tc := ⟨.hbm, 120, rfl⟩
abbrev main_v99 : Ref sig .tc := ⟨.hbm, 121, rfl⟩
abbrev main_v100 : Ref sig .tc := ⟨.hbm, 122, rfl⟩
abbrev main_cst_18 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_19 : Ref sig .tc := ⟨.hbm, 129, rfl⟩
abbrev main_call2_v0 : Ref sig .tc := ⟨.hbm, 130, rfl⟩
abbrev main_call2_v1 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_20 : Ref sig .tc := ⟨.hbm, 136, rfl⟩
abbrev main_call3_v0 : Ref sig .tc := ⟨.hbm, 137, rfl⟩
abbrev main_call3_v1 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_c_21 : Ref sig .tc := ⟨.hbm, 143, rfl⟩
abbrev main_c_22 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_v114 : Ref sig .tc := ⟨.hbm, 150, rfl⟩
abbrev main_v115 : Ref sig .tc := ⟨.hbm, 151, rfl⟩
abbrev main_c_23 : Ref sig .tc := ⟨.hbm, 152, rfl⟩
abbrev main_c_24 : Ref sig .tc := ⟨.hbm, 153, rfl⟩
abbrev main_call5_v0 : Ref sig .tc := ⟨.hbm, 154, rfl⟩
abbrev main_call5_v1 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_v116 : Ref sig .tc := ⟨.hbm, 159, rfl⟩
abbrev main_c_25 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_c_26 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_c_27 : Ref sig .tc := ⟨.hbm, 174, rfl⟩
abbrev main_v129 : Ref sig .tc := ⟨.hbm, 175, rfl⟩
abbrev main_v130 : Ref sig .tc := ⟨.hbm, 176, rfl⟩
abbrev main_c_28 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_cst_29 : Ref sig .tc := ⟨.hbm, 184, rfl⟩
abbrev main_v137 : Ref sig .tc := ⟨.hbm, 185, rfl⟩
abbrev main_v138 : Ref sig .tc := ⟨.hbm, 186, rfl⟩

abbrev nD : Nat := 1
abbrev τ : Topo := Topo.v7x

variable {F : FTy → Type} [FloatOps F]

class Facts₀ : Prop where
  slices_S17x5x38x50_S17x1x38x50_0_0_0_0 : S17x5x38x50.Slices ![0, 0, 0, 0] S17x1x38x50
  shapeCasts_S17x1x38x50_S17x38x50 : S17x1x38x50.ShapeCasts S17x38x50
  slices_S17x5x38x50_S17x1x38x50_0_1_0_0 : S17x5x38x50.Slices ![0, 1, 0, 0] S17x1x38x50
  bcast_S_S17x38x50 : S_.BroadcastsInDim S17x38x50 (![] : Fin 0 → Fin S17x38x50.rank)
  slices_S17x5x38x50_S17x1x38x50_0_2_0_0 : S17x5x38x50.Slices ![0, 2, 0, 0] S17x1x38x50
  slices_S17x5x38x50_S17x1x38x50_0_4_0_0 : S17x5x38x50.Slices ![0, 4, 0, 0] S17x1x38x50
  bcast_S_S27 : S_.BroadcastsInDim S27 (![] : Fin 0 → Fin S27.rank)
  bcast_S17x38x50_S17x38x50x1_0_1_2 : S17x38x50.BroadcastsInDim S17x38x50x1 (![0, 1, 2] : Fin 3 → Fin S17x38x50x1.rank)
  bcast_S27_S1x1x1x27_3 : S27.BroadcastsInDim S1x1x1x27 (![3] : Fin 1 → Fin S1x1x1x27.rank)
  bcast_S17x38x50x1_S17x38x50x27_0_1_2_3 : S17x38x50x1.BroadcastsInDim S17x38x50x27 (![0, 1, 2, 3] : Fin 4 → Fin S17x38x50x27.rank)
  bcast_S1x1x1x27_S17x38x50x27_0_1_2_3 : S1x1x1x27.BroadcastsInDim S17x38x50x27 (![0, 1, 2, 3] : Fin 4 → Fin S17x38x50x27.rank)
  bcast_S17x38x50x27_S17x38x50x27x1_0_1_2_3 : S17x38x50x27.BroadcastsInDim S17x38x50x27x1 (![0, 1, 2, 3] : Fin 4 → Fin S17x38x50x27x1.rank)
  bcast_S17x38x50x27_S17x38x50x1x27_0_1_2_4 : S17x38x50x27.BroadcastsInDim S17x38x50x1x27 (![0, 1, 2, 4] : Fin 4 → Fin S17x38x50x1x27.rank)
  bcast_S17x38x50x27x1_S17x38x50x27x27_0_1_2_3_4 : S17x38x50x27x1.BroadcastsInDim S17x38x50x27x27 (![0, 1, 2, 3, 4] : Fin 5 → Fin S17x38x50x27x27.rank)
  bcast_S17x38x50x1x27_S17x38x50x27x27_0_1_2_3_4 : S17x38x50x1x27.BroadcastsInDim S17x38x50x27x27 (![0, 1, 2, 3, 4] : Fin 5 → Fin S17x38x50x27x27.rank)
  bcast_S17x38x50_S17x38x50x1x1_0_1_2 : S17x38x50.BroadcastsInDim S17x38x50x1x1 (![0, 1, 2] : Fin 3 → Fin S17x38x50x1x1.rank)
  bcast_S_S17x38x50x1x1 : S_.BroadcastsInDim S17x38x50x1x1 (![] : Fin 0 → Fin S17x38x50x1x1.rank)
  bcast_S_S17x38x50x27 : S_.BroadcastsInDim S17x38x50x27 (![] : Fin 0 → Fin S17x38x50x27.rank)
  bcast_S17x38x50x1x1_S17x38x50x27x27_0_1_2_3_4 : S17x38x50x1x1.BroadcastsInDim S17x38x50x27x27 (![0, 1, 2, 3, 4] : Fin 5 → Fin S17x38x50x27x27.rank)
  bcast_S_S17x38x50x27x1 : S_.BroadcastsInDim S17x38x50x27x1 (![] : Fin 0 → Fin S17x38x50x27x1.rank)
  bcast_S_S17x38x50x1x27 : S_.BroadcastsInDim S17x38x50x1x27 (![] : Fin 0 → Fin S17x38x50x1x27.rank)
  bcast_S_S17x38x50x27x27 : S_.BroadcastsInDim S17x38x50x27x27 (![] : Fin 0 → Fin S17x38x50x27x27.rank)
  bcast_S17_S17x1x1x1x1_0 : S17.BroadcastsInDim S17x1x1x1x1 (![0] : Fin 1 → Fin S17x1x1x1x1.rank)
  bcast_S_S17x1x1x1x1 : S_.BroadcastsInDim S17x1x1x1x1 (![] : Fin 0 → Fin S17x1x1x1x1.rank)
  bcast_S17x1x1x1x1_S17x38x50x27x1_0_1_2_3_4 : S17x1x1x1x1.BroadcastsInDim S17x38x50x27x1 (![0, 1, 2, 3, 4] : Fin 5 → Fin S17x38x50x27x1.rank)
  shapeCasts_S17x300x400_S2040000 : S17x300x400.ShapeCasts S2040000
  shapeCasts_S17x38x50x27x27_S23546700 : S17x38x50x27x27.ShapeCasts S23546700
  bcast_S_S23546700 : S_.BroadcastsInDim S23546700 (![] : Fin 0 → Fin S23546700.rank)
  bcast_S23546700_S23546700x1_0 : S23546700.BroadcastsInDim S23546700x1 (![0] : Fin 1 → Fin S23546700x1.rank)
  shapeCasts_S2040000_S17x300x400 : S2040000.ShapeCasts S17x300x400
  bcast_S_S17x300x400 : S_.BroadcastsInDim S17x300x400 (![] : Fin 0 → Fin S17x300x400.rank)
  scatter_S2040000_S23546700x1_S23546700_n_0_0_1_wf : ScatterDims.WF S2040000 S23546700x1 S23546700 [] [0] [0] 1

variable [Facts₀]

def scatter_S2040000_S23546700x1_S23546700_n_0_0_1 : ScatterDims S2040000 S23546700x1 S23546700 where
  updateWindowDims := []
  insertedWindowDims := [0]
  scatterDimsToOperandDims := [0]
  indexVectorDim := 1
  wf := scatter_S2040000_S23546700x1_S23546700_n_0_0_1_wf

class Facts : Prop extends Facts₀ where

variable [Facts]
-- ==== Proof.BitsAround.lean ====
/-
  The program runs to the end, faults nowhere and leaves its two argument arrays as launched; and what every buffer
  holds at the end is named.

  @main is three stretches: host lines that pad `x` from 38 to 40 rows with zeros, ONE grid of 17 × 5 points — point
  (f, k) reads the 5 × 8 × 50 block of the padded `x` at field `f`, rows 8k … 8k+7, and writes the whole
  8 × 50 × 27 × 27 block of contributions of those 400 field points — and 76 host lines that slice the 38 true rows,
  compute the scatter indices from `x`, scatter-add the contributions into `cifhr` and clamp at one.
  The body has one control path: four loads from the input block, one store of the whole output block. So after
  the body at a point the output's staging buffer holds the stored value, a function of the input block alone
  (`outBlk`), and the input's buffer still holds its block. The later host lines write only their own result
  buffers: never an array the grid reads or writes, never an argument.
-/
import proofs.«140136_j738734375140_2_alg».proof.Proof.Gen.Kernel.Launch
import proofs.«140136_j738734375140_2_alg».proof.Proof.Gen.Kernel.Skeleton
import proofs.«140136_j738734375140_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the grid -/

/-- Core `c`'s buffers when the grid starts: the launch contents after the lines before it (a zero, its conversion,
    the zero-padded `x`). -/
abbrev V0 (c : Dev nD) : Valuation τ sig (Elt F) := StableHlo.after (List.flatten [hostOps0, hostOps0_1]) (fun b => m (c, b))
/-- The same, read at one buffer. -/
abbrev V (c : Dev nD) (b : Ref sig .tc) : Buf (Elt F) ((c : Thread nD τ).loc b) := V0 m c (Proc.devRef .tc b)

/-! No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the lines before the grid, the grid, the lines after it: run from the launch memory it comes to the grid
    holding the buffers at `V`, and continues with the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([hostOps1, hostOps1_1, hostOps1_2, hostOps1_3, hostOps1_4, hostOps1_5, hostOps1_6, hostOps1_7, hostOps1_8] : List (List (HloOp τ sig (Elt F)))).map StableHlo.seq)) :=
  Pipeline.hmain_around cfgs 0 defs₀ 𝒱₀ m main [hostOps0, hostOps0_1] [hostOps1, hostOps1_1, hostOps1_2, hostOps1_3, hostOps1_4, hostOps1_5, hostOps1_6, hostOps1_7, hostOps1_8]
    (by simp only [List.Forall]; exact ⟨hostOps0_sub, hostOps0_1_sub⟩)
    (by simp only [List.Forall]; exact ⟨hostOps0_fresh, hostOps0_1_fresh⟩) main_chain

/-- The later lines touch only unscoped buffers of the core: the grid's two arrays and buffers the grid never sees. -/
theorem tail_sub : ∀ ops ∈ ([hostOps1, hostOps1_1, hostOps1_2, hostOps1_3, hostOps1_4, hostOps1_5, hostOps1_6, hostOps1_7, hostOps1_8] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem tail_fresh : ∀ ops ∈ ([hostOps1, hostOps1_1, hostOps1_2, hostOps1_3, hostOps1_4, hostOps1_5, hostOps1_6, hostOps1_7, hostOps1_8] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-! Each later line writes its own result buffer, which is neither the padded input nor the grid's output. -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps : ∀ ops ∈ ([hostOps1, hostOps1_1, hostOps1_2, hostOps1_3, hostOps1_4, hostOps1_5, hostOps1_6, hostOps1_7, hostOps1_8] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop

/-! ## The arguments are never written -/

/-- No line before the grid writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line before the grid writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! No line after the grid writes an argument either (one stretch at a time). -/
theorem hostOps1_not_main_arg0 : ∀ op ∈ (hostOps1 : List (HloOp τ sig (Elt F))), Proc.devRef .tc main_arg0 ∉ op.writes := by
  intro op hop
  simp only [hostOps1, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_not_main_arg0 : ∀ op ∈ (hostOps1_1 : List (HloOp τ sig (Elt F))), Proc.devRef .tc main_arg0 ∉ op.writes := by
  intro op hop
  simp only [hostOps1_1, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_not_main_arg0 : ∀ op ∈ (hostOps1_2 : List (HloOp τ sig (Elt F))), Proc.devRef .tc main_arg0 ∉ op.writes := by
  intro op hop
  simp only [hostOps1_2, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_not_main_arg0 : ∀ op ∈ (hostOps1_3 : List (HloOp τ sig (Elt F))), Proc.devRef .tc main_arg0 ∉ op.writes := by
  intro op hop
  simp only [hostOps1_3, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_not_main_arg0 : ∀ op ∈ (hostOps1_4 : List (HloOp τ sig (Elt F))), Proc.devRef .tc main_arg0 ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_not_main_arg0 : ∀ op ∈ (hostOps1_5 : List (HloOp τ sig (Elt F))), Proc.devRef .tc main_arg0 ∉ op.writes := by
  intro op hop
  simp only [hostOps1_5, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_not_main_arg0 : ∀ op ∈ (hostOps1_6 : List (HloOp τ sig (Elt F))), Proc.devRef .tc main_arg0 ∉ op.writes := by
  intro op hop
  simp only [hostOps1_6, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_not_main_arg0 : ∀ op ∈ (hostOps1_7 : List (HloOp τ sig (Elt F))), Proc.devRef .tc main_arg0 ∉ op.writes := by
  intro op hop
  simp only [hostOps1_7, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_not_main_arg0 : ∀ op ∈ (hostOps1_8 : List (HloOp τ sig (Elt F))), Proc.devRef .tc main_arg0 ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_not_main_arg1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_not_main_arg1 : ∀ op ∈ (hostOps1_1 : List (HloOp τ sig (Elt F))), Proc.devRef .tc main_arg1 ∉ op.writes := by
  intro op hop
  simp only [hostOps1_1, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_not_main_arg1 : ∀ op ∈ (hostOps1_2 : List (HloOp τ sig (Elt F))), Proc.devRef .tc main_arg1 ∉ op.writes := by
  intro op hop
  simp only [hostOps1_2, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_not_main_arg1 : ∀ op ∈ (hostOps1_3 : List (HloOp τ sig (Elt F))), Proc.devRef .tc main_arg1 ∉ op.writes := by
  intro op hop
  simp only [hostOps1_3, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_not_main_arg1 : ∀ op ∈ (hostOps1_4 : List (HloOp τ sig (Elt F))), Proc.devRef .tc main_arg1 ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_not_main_arg1 : ∀ op ∈ (hostOps1_5 : List (HloOp τ sig (Elt F))), Proc.devRef .tc main_arg1 ∉ op.writes := by
  intro op hop
  simp only [hostOps1_5, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_not_main_arg1 : ∀ op ∈ (hostOps1_6 : List (HloOp τ sig (Elt F))), Proc.devRef .tc main_arg1 ∉ op.writes := by
  intro op hop
  simp only [hostOps1_6, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_not_main_arg1 : ∀ op ∈ (hostOps1_7 : List (HloOp τ sig (Elt F))), Proc.devRef .tc main_arg1 ∉ op.writes := by
  intro op hop
  simp only [hostOps1_7, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_not_main_arg1 : ∀ op ∈ (hostOps1_8 : List (HloOp τ sig (Elt F))), Proc.devRef .tc main_arg1 ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_not_main_v0 : ∀ op ∈ (hostOps1 : List (HloOp τ sig (Elt F))), Proc.devRef .tc main_v0 ∉ op.writes := by
  intro op hop
  simp only [hostOps1, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_not_main_v0 : ∀ op ∈ (hostOps1_1 : List (HloOp τ sig (Elt F))), Proc.devRef .tc main_v0 ∉ op.writes := by
  intro op hop
  simp only [hostOps1_1, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_not_main_v0 : ∀ op ∈ (hostOps1_2 : List (HloOp τ sig (Elt F))), Proc.devRef .tc main_v0 ∉ op.writes := by
  intro op hop
  simp only [hostOps1_2, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_not_main_v0 : ∀ op ∈ (hostOps1_3 : List (HloOp τ sig (Elt F))), Proc.devRef .tc main_v0 ∉ op.writes := by
  intro op hop
  simp only [hostOps1_3, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_not_main_v0 : ∀ op ∈ (hostOps1_4 : List (HloOp τ sig (Elt F))), Proc.devRef .tc main_v0 ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_not_main_v0 : ∀ op ∈ (hostOps1_5 : List (HloOp τ sig (Elt F))), Proc.devRef .tc main_v0 ∉ op.writes := by
  intro op hop
  simp only [hostOps1_5, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_not_main_v0 : ∀ op ∈ (hostOps1_6 : List (HloOp τ sig (Elt F))), Proc.devRef .tc main_v0 ∉ op.writes := by
  intro op hop
  simp only [hostOps1_6, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_not_main_v0 : ∀ op ∈ (hostOps1_7 : List (HloOp τ sig (Elt F))), Proc.devRef .tc main_v0 ∉ op.writes := by
  intro op hop
  simp only [hostOps1_7, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_not_main_v0 : ∀ op ∈ (hostOps1_8 : List (HloOp τ sig (Elt F))), Proc.devRef .tc main_v0 ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_not_main_v1 : ∀ op ∈ (hostOps1 : List (HloOp τ sig (Elt F))), Proc.devRef .tc main_v1 ∉ op.writes := by
  intro op hop
  simp only [hostOps1, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_not_main_v1 : ∀ op ∈ (hostOps1_1 : List (HloOp τ sig (Elt F))), Proc.devRef .tc main_v1 ∉ op.writes := by
  intro op hop
  simp only [hostOps1_1, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_not_main_v1 : ∀ op ∈ (hostOps1_2 : List (HloOp τ sig (Elt F))), Proc.devRef .tc main_v1 ∉ op.writes := by
  intro op hop
  simp only [hostOps1_2, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_not_main_v1 : ∀ op ∈ (hostOps1_3 : List (HloOp τ sig (Elt F))), Proc.devRef .tc main_v1 ∉ op.writes := by
  intro op hop
  simp only [hostOps1_3, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_not_main_v1 : ∀ op ∈ (hostOps1_4 : List (HloOp τ sig (Elt F))), Proc.devRef .tc main_v1 ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_not_main_v1 : ∀ op ∈ (hostOps1_5 : List (HloOp τ sig (Elt F))), Proc.devRef .tc main_v1 ∉ op.writes := by
  intro op hop
  simp only [hostOps1_5, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_not_main_v1 : ∀ op ∈ (hostOps1_6 : List (HloOp τ sig (Elt F))), Proc.devRef .tc main_v1 ∉ op.writes := by
  intro op hop
  simp only [hostOps1_6, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_not_main_v1 : ∀ op ∈ (hostOps1_7 : List (HloOp τ sig (Elt F))), Proc.devRef .tc main_v1 ∉ op.writes := by
  intro op hop
  simp only [hostOps1_7, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_not_main_v1 : ∀ op ∈ (hostOps1_8 : List (HloOp τ sig (Elt F))), Proc.devRef .tc main_v1 ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No later line writes `main_arg0`. -/
theorem tail_not_main_arg0 : ∀ op ∈ ([hostOps1, hostOps1_1, hostOps1_2, hostOps1_3, hostOps1_4, hostOps1_5, hostOps1_6, hostOps1_7, hostOps1_8] : List (List (HloOp τ sig (Elt F)))).flatten, Proc.devRef .tc main_arg0 ∉ op.writes := by
  intro op hop
  simp only [List.flatten_cons, List.flatten_nil, List.append_nil, List.mem_append] at hop
  rcases hop with h | h | h | h | h | h | h | h | h
  · exact hostOps1_not_main_arg0 op h
  · exact hostOps1_1_not_main_arg0 op h
  · exact hostOps1_2_not_main_arg0 op h
  · exact hostOps1_3_not_main_arg0 op h
  · exact hostOps1_4_not_main_arg0 op h
  · exact hostOps1_5_not_main_arg0 op h
  · exact hostOps1_6_not_main_arg0 op h
  · exact hostOps1_7_not_main_arg0 op h
  · exact hostOps1_8_not_main_arg0 op h

/-- No later line writes `main_arg1`. -/
theorem tail_not_main_arg1 : ∀ op ∈ ([hostOps1, hostOps1_1, hostOps1_2, hostOps1_3, hostOps1_4, hostOps1_5, hostOps1_6, hostOps1_7, hostOps1_8] : List (List (HloOp τ sig (Elt F)))).flatten, Proc.devRef .tc main_arg1 ∉ op.writes := by
  intro op hop
  simp only [List.flatten_cons, List.flatten_nil, List.append_nil, List.mem_append] at hop
  rcases hop with h | h | h | h | h | h | h | h | h
  · exact hostOps1_not_main_arg1 op h
  · exact hostOps1_1_not_main_arg1 op h
  · exact hostOps1_2_not_main_arg1 op h
  · exact hostOps1_3_not_main_arg1 op h
  · exact hostOps1_4_not_main_arg1 op h
  · exact hostOps1_5_not_main_arg1 op h
  · exact hostOps1_6_not_main_arg1 op h
  · exact hostOps1_7_not_main_arg1 op h
  · exact hostOps1_8_not_main_arg1 op h

/-- No later line writes `main_v0`. -/
theorem tail_not_main_v0 : ∀ op ∈ ([hostOps1, hostOps1_1, hostOps1_2, hostOps1_3, hostOps1_4, hostOps1_5, hostOps1_6, hostOps1_7, hostOps1_8] : List (List (HloOp τ sig (Elt F)))).flatten, Proc.devRef .tc main_v0 ∉ op.writes := by
  intro op hop
  simp only [List.flatten_cons, List.flatten_nil, List.append_nil, List.mem_append] at hop
  rcases hop with h | h | h | h | h | h | h | h | h
  · exact hostOps1_not_main_v0 op h
  · exact hostOps1_1_not_main_v0 op h
  · exact hostOps1_2_not_main_v0 op h
  · exact hostOps1_3_not_main_v0 op h
  · exact hostOps1_4_not_main_v0 op h
  · exact hostOps1_5_not_main_v0 op h
  · exact hostOps1_6_not_main_v0 op h
  · exact hostOps1_7_not_main_v0 op h
  · exact hostOps1_8_not_main_v0 op h

/-- No later line writes `main_v1`. -/
theorem tail_not_main_v1 : ∀ op ∈ ([hostOps1, hostOps1_1, hostOps1_2, hostOps1_3, hostOps1_4, hostOps1_5, hostOps1_6, hostOps1_7, hostOps1_8] : List (List (HloOp τ sig (Elt F)))).flatten, Proc.devRef .tc main_v1 ∉ op.writes := by
  intro op hop
  simp only [List.flatten_cons, List.flatten_nil, List.append_nil, List.mem_append] at hop
  rcases hop with h | h | h | h | h | h | h | h | h
  · exact hostOps1_not_main_v1 op h
  · exact hostOps1_1_not_main_v1 op h
  · exact hostOps1_2_not_main_v1 op h
  · exact hostOps1_3_not_main_v1 op h
  · exact hostOps1_4_not_main_v1 op h
  · exact hostOps1_5_not_main_v1 op h
  · exact hostOps1_6_not_main_v1 op h
  · exact hostOps1_7_not_main_v1 op h
  · exact hostOps1_8_not_main_v1 op h

end Cert.Kernel.Around

end
-- ==== Proof.BitsRun.lean ====
/-
  The grid's run, point by point, and the whole program's run around it.

  At a point the body is handed the input block in one staging buffer and anything in the output's; it loads the
  four channel slabs it uses (channels 0, 1, 2, 4 of the 5 × 8 × 50 block), computes the 8 × 50 × 27 × 27
  contributions and stores them over the whole output buffer. The input buffer is left as it was, so at every point
  it holds the block of the padded array; the output buffer ends at `outBlk` of that block. The pipeline then writes
  the output block back at every point, and the lines after the grid read the output array and the arguments.
-/
import proofs.«140136_j738734375140_2_alg».proof.Proof.BitsAround

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input's staging buffer holds the point's block of the padded array at every point, whenever the body leaves
    that buffer as it found it: the window is fetched at every point and never idle. -/
theorem before_in {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The four channel slabs the body loads: channel 0 (confidence), 1 (x), 2 (y) and 4 (scale) of the block. -/
abbrev rV : Rect S1x5x8x50 := Rect.unit (s := S1x5x8x50) ![0, 0, 0, 0] S1x1x8x50.size inb_S1x5x8x50_S1x1x8x50_0_0_0_0
abbrev rXr : Rect S1x5x8x50 := Rect.unit (s := S1x5x8x50) ![0, 1, 0, 0] S1x1x8x50.size inb_S1x5x8x50_S1x1x8x50_0_1_0_0
abbrev rYr : Rect S1x5x8x50 := Rect.unit (s := S1x5x8x50) ![0, 2, 0, 0] S1x1x8x50.size inb_S1x5x8x50_S1x1x8x50_0_2_0_0
abbrev rSc : Rect S1x5x8x50 := Rect.unit (s := S1x5x8x50) ![0, 4, 0, 0] S1x1x8x50.size inb_S1x5x8x50_S1x1x8x50_0_4_0_0
/-- The one store covers the whole output block. -/
abbrev rOut : Rect S1x8x50x27x27 := Rect.unit (s := S1x8x50x27x27) ![0, 0, 0, 0, 0] S1x8x50x27x27.size inb_S1x8x50x27x27_S1x8x50x27x27_0_0_0_0_0

/-- The stored contributions as a function of the four loaded slabs: the body's arithmetic, composed. -/
def payOf (v0 v2 v4 v6 : Vec F S1x1x8x50 .f32) : FVec F S1x8x50x27x27 .f32 :=
  k0_pay1 (k0_pay7 v0) (k0_pay8 v0 v6) (k0_pay14 (k0_pay4 v2) (k0_pay9 v2)) (k0_pay15 (k0_pay5 v4) (k0_pay10 v4)) (k0_pay16 (k0_pay6 v6))
    (k0_pay17 (k0_pay4 v2) (k0_pay5 v4) (k0_pay9 v2) (k0_pay10 v4)) (k0_pay18 (F := F) (k0_pay9 v2) (k0_pay10 v4))
    (k0_pay19 (k0_pay4 v2) (k0_pay5 v4) (k0_pay6 v6) (k0_pay9 v2) (k0_pay10 v4))

/-- What the output's staging buffer holds after the body, from the input block. -/
def outBlk (x0 : Vec F S1x5x8x50 .f32) : Vec F S1x8x50x27x27 .f32 :=
  View.canon [⟨rOut, payOf (View.ld x0 rV) (View.ld x0 rXr) (View.ld x0 rYr) (View.ld x0 rSc)⟩]

/-- The store's rectangle is the whole buffer. -/
theorem cover_out (p0 : Vec F S1x8x50x27x27 .f32) (y : S1x8x50x27x27.Idx) :
    ∃ pc ∈ ([⟨rOut, p0⟩] : List (View.Piece (Elt F) S1x8x50x27x27 .f32)), y ∈ pc.1.set :=
  View.cover_of_tiled [⟨rOut, p0⟩] S1x8x50x27x27.size (by rfl) y

/-! ## The body's triple -/

set_option maxHeartbeats 4000000 in
/-- The body on whole staging buffers, the input's at contents `x0` and the output's at anything, runs to its end with
    the input's unchanged and the output's at `outBlk x0`. -/
theorem sound_kernel (c : Dev nD) (E : Set ℕ) (i : grid0.Coords) (arg2 : Memref sig .tc .vmem S1x5x8x50 .f32) (harg2 : arg2.IsWhole) (arg3 : Memref sig .tc .vmem S1x8x50x27x27 .f32) (harg3 : arg3.IsWhole)
    (x0 : Vec F S1x5x8x50 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outBlk x0)) -∗ K ⟨⟩))
      ⊢ wp frame (wpE (defs₀ (F := F)) Variants.none c none) E (cc0__contrib_kernel i arg2 harg2 arg3 harg3) K := by
  simp only [cc0__contrib_kernel_eq_skeleton]; unfold cc0__contrib_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The grid's proof data -/

/-- On core `c`: the arrays as the grid finds them; after the body at point `t` the input's buffer at its block and
    the output's at `outBlk` of that block; nothing else is used or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlk (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in (c : Dev nD) (t : Fin cfg0.N) : (dats m 0 c).after 0 t = iblk m c 0 t := by dsimp only [dats]
theorem after_out (c : Dev nD) (t : Fin cfg0.N) : (dats m 0 c).after 1 t = outBlk (iblk m c 0 t) := by dsimp only [dats]
theorem before_in_dats (c : Dev nD) (t : Fin cfg0.N) (d) : (dats m 0 c).before 0 t d = iblk m c 0 t :=
  before_in m (dats m 0 c) (A_eq m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in_dats]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end the grid's two arrays hold what the write-backs left
    and every other unscoped buffer what the later host lines computed from them. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8]) (hsub := tail_sub) (hfresh := tail_fresh) (hkeep := tail_keeps)
    (hmain := hmain m Variants.none) (hA := A_eq m) (hΦ := fun _ _ => rfl)

/-- A buffer no later line writes, and that is no array of the grid, ends at what the grid found in it. -/
theorem tail_kept (c : Dev nD) (b : Ref sig .tc) (hb : ∀ w, Pipeline.arrRef spec0 w ≠ b)
    (hw : ∀ op ∈ ([hostOps1, hostOps1_1, hostOps1_2, hostOps1_3, hostOps1_4, hostOps1_5, hostOps1_6, hostOps1_7, hostOps1_8] : List (List (HloOp τ sig (Elt F)))).flatten, Proc.devRef .tc b ∉ op.writes) :
    Pipeline.afterTail₀ cfgs (dats m) 0 (V0 m) [hostOps1, hostOps1_1, hostOps1_2, hostOps1_3, hostOps1_4, hostOps1_5, hostOps1_6, hostOps1_7, hostOps1_8] c b = V m c b := by
  unfold Pipeline.afterTail₀
  rw [StableHlo.after_of_forall_not_mem (b := Proc.devRef .tc b) _ _ hw,
    Pipeline.withArrays_of_ne _ c (V0 m c) _ b hb]

/-- The arguments end as launched. -/
theorem end_main_arg0 (c : Dev nD) :
    Pipeline.afterTail₀ cfgs (dats m) 0 (V0 m) [hostOps1, hostOps1_1, hostOps1_2, hostOps1_3, hostOps1_4, hostOps1_5, hostOps1_6, hostOps1_7, hostOps1_8] c main_arg0 = m ((c : Thread nD τ).loc main_arg0) :=
  (tail_kept m c main_arg0 (by decide) tail_not_main_arg0).trans (V_main_arg0 m c)
theorem end_main_arg1 (c : Dev nD) :
    Pipeline.afterTail₀ cfgs (dats m) 0 (V0 m) [hostOps1, hostOps1_1, hostOps1_2, hostOps1_3, hostOps1_4, hostOps1_5, hostOps1_6, hostOps1_7, hostOps1_8] c main_arg1 = m ((c : Thread nD τ).loc main_arg1) :=
  (tail_kept m c main_arg1 (by decide) tail_not_main_arg1).trans (V_main_arg1 m c)

/-- THE FRAME: the program terminates without a fault and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (end_main_arg0 m c),
     ((h c).2 main_arg1 (Pipeline.mem_restRefs_of main_arg1 (by decide) (by decide))).trans (end_main_arg1 m c)⟩) (run_main m ρ)

end Cert.Kernel.Around

end
-- ==== Proof.IdealAround.lean ====
/-
  The program runs to the end, faults nowhere and leaves its two argument arrays as launched; and what every buffer
  holds at the end is named.

  @main is three stretches: host lines that pad `x` from 38 to 40 rows with zeros, ONE grid of 17 × 5 points — point
  (f, k) reads the 5 × 8 × 50 block of the padded `x` at field `f`, rows 8k … 8k+7, and writes the whole
  8 × 50 × 27 × 27 block of contributions of those 400 field points — and 76 host lines that slice the 38 true rows,
  compute the scatter indices from `x`, scatter-add the contributions into `cifhr` and clamp at one.
  The body has one control path: four loads from the input block, one store of the whole output block. So after
  the body at a point the output's staging buffer holds the stored value, a function of the input block alone
  (`outBlk`), and the input's buffer still holds its block. The later host lines write only their own result
  buffers: never an array the grid reads or writes, never an argument.
-/
import proofs.«140136_j738734375140_2_alg».proof.Proof.Gen.KernelIdeal.Launch
import proofs.«140136_j738734375140_2_alg».proof.Proof.Gen.KernelIdeal.Skeleton
import proofs.«140136_j738734375140_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the grid -/

/-- Core `c`'s buffers when the grid starts: the launch contents after the lines before it (a zero, its conversion,
    the zero-padded `x`). -/
abbrev V0 (c : Dev nD) : Valuation τ sig (Elt F) := StableHlo.after (List.flatten [hostOps0, hostOps0_1]) (fun b => m (c, b))
/-- The same, read at one buffer. -/
abbrev V (c : Dev nD) (b : Ref sig .tc) : Buf (Elt F) ((c : Thread nD τ).loc b) := V0 m c (Proc.devRef .tc b)

/-! No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the lines before the grid, the grid, the lines after it: run from the launch memory it comes to the grid
    holding the buffers at `V`, and continues with the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([hostOps1, hostOps1_1, hostOps1_2, hostOps1_3, hostOps1_4, hostOps1_5, hostOps1_6, hostOps1_7, hostOps1_8] : List (List (HloOp τ sig (Elt F)))).map StableHlo.seq)) :=
  Pipeline.hmain_around cfgs 0 defs₀ 𝒱₀ m main [hostOps0, hostOps0_1] [hostOps1, hostOps1_1, hostOps1_2, hostOps1_3, hostOps1_4, hostOps1_5, hostOps1_6, hostOps1_7, hostOps1_8]
    (by simp only [List.Forall]; exact ⟨hostOps0_sub, hostOps0_1_sub⟩)
    (by simp only [List.Forall]; exact ⟨hostOps0_fresh, hostOps0_1_fresh⟩) main_chain

/-- The later lines touch only unscoped buffers of the core: the grid's two arrays and buffers the grid never sees. -/
theorem tail_sub : ∀ ops ∈ ([hostOps1, hostOps1_1, hostOps1_2, hostOps1_3, hostOps1_4, hostOps1_5, hostOps1_6, hostOps1_7, hostOps1_8] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem tail_fresh : ∀ ops ∈ ([hostOps1, hostOps1_1, hostOps1_2, hostOps1_3, hostOps1_4, hostOps1_5, hostOps1_6, hostOps1_7, hostOps1_8] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-! Each later line writes its own result buffer, which is neither the padded input nor the grid's output. -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps : ∀ ops ∈ ([hostOps1, hostOps1_1, hostOps1_2, hostOps1_3, hostOps1_4, hostOps1_5, hostOps1_6, hostOps1_7, hostOps1_8] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop

/-! ## The arguments are never written -/

/-- No line before the grid writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line before the grid writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! No line after the grid writes an argument either (one stretch at a time). -/
theorem hostOps1_not_main_arg0 : ∀ op ∈ (hostOps1 : List (HloOp τ sig (Elt F))), Proc.devRef .tc main_arg0 ∉ op.writes := by
  intro op hop
  simp only [hostOps1, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_not_main_arg0 : ∀ op ∈ (hostOps1_1 : List (HloOp τ sig (Elt F))), Proc.devRef .tc main_arg0 ∉ op.writes := by
  intro op hop
  simp only [hostOps1_1, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_not_main_arg0 : ∀ op ∈ (hostOps1_2 : List (HloOp τ sig (Elt F))), Proc.devRef .tc main_arg0 ∉ op.writes := by
  intro op hop
  simp only [hostOps1_2, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_not_main_arg0 : ∀ op ∈ (hostOps1_3 : List (HloOp τ sig (Elt F))), Proc.devRef .tc main_arg0 ∉ op.writes := by
  intro op hop
  simp only [hostOps1_3, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_not_main_arg0 : ∀ op ∈ (hostOps1_4 : List (HloOp τ sig (Elt F))), Proc.devRef .tc main_arg0 ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_not_main_arg0 : ∀ op ∈ (hostOps1_5 : List (HloOp τ sig (Elt F))), Proc.devRef .tc main_arg0 ∉ op.writes := by
  intro op hop
  simp only [hostOps1_5, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_not_main_arg0 : ∀ op ∈ (hostOps1_6 : List (HloOp τ sig (Elt F))), Proc.devRef .tc main_arg0 ∉ op.writes := by
  intro op hop
  simp only [hostOps1_6, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_not_main_arg0 : ∀ op ∈ (hostOps1_7 : List (HloOp τ sig (Elt F))), Proc.devRef .tc main_arg0 ∉ op.writes := by
  intro op hop
  simp only [hostOps1_7, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_not_main_arg0 : ∀ op ∈ (hostOps1_8 : List (HloOp τ sig (Elt F))), Proc.devRef .tc main_arg0 ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_not_main_arg1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_not_main_arg1 : ∀ op ∈ (hostOps1_1 : List (HloOp τ sig (Elt F))), Proc.devRef .tc main_arg1 ∉ op.writes := by
  intro op hop
  simp only [hostOps1_1, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_not_main_arg1 : ∀ op ∈ (hostOps1_2 : List (HloOp τ sig (Elt F))), Proc.devRef .tc main_arg1 ∉ op.writes := by
  intro op hop
  simp only [hostOps1_2, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_not_main_arg1 : ∀ op ∈ (hostOps1_3 : List (HloOp τ sig (Elt F))), Proc.devRef .tc main_arg1 ∉ op.writes := by
  intro op hop
  simp only [hostOps1_3, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_not_main_arg1 : ∀ op ∈ (hostOps1_4 : List (HloOp τ sig (Elt F))), Proc.devRef .tc main_arg1 ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_not_main_arg1 : ∀ op ∈ (hostOps1_5 : List (HloOp τ sig (Elt F))), Proc.devRef .tc main_arg1 ∉ op.writes := by
  intro op hop
  simp only [hostOps1_5, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_not_main_arg1 : ∀ op ∈ (hostOps1_6 : List (HloOp τ sig (Elt F))), Proc.devRef .tc main_arg1 ∉ op.writes := by
  intro op hop
  simp only [hostOps1_6, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_not_main_arg1 : ∀ op ∈ (hostOps1_7 : List (HloOp τ sig (Elt F))), Proc.devRef .tc main_arg1 ∉ op.writes := by
  intro op hop
  simp only [hostOps1_7, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_not_main_arg1 : ∀ op ∈ (hostOps1_8 : List (HloOp τ sig (Elt F))), Proc.devRef .tc main_arg1 ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_not_main_v0 : ∀ op ∈ (hostOps1 : List (HloOp τ sig (Elt F))), Proc.devRef .tc main_v0 ∉ op.writes := by
  intro op hop
  simp only [hostOps1, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_not_main_v0 : ∀ op ∈ (hostOps1_1 : List (HloOp τ sig (Elt F))), Proc.devRef .tc main_v0 ∉ op.writes := by
  intro op hop
  simp only [hostOps1_1, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_not_main_v0 : ∀ op ∈ (hostOps1_2 : List (HloOp τ sig (Elt F))), Proc.devRef .tc main_v0 ∉ op.writes := by
  intro op hop
  simp only [hostOps1_2, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_not_main_v0 : ∀ op ∈ (hostOps1_3 : List (HloOp τ sig (Elt F))), Proc.devRef .tc main_v0 ∉ op.writes := by
  intro op hop
  simp only [hostOps1_3, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_not_main_v0 : ∀ op ∈ (hostOps1_4 : List (HloOp τ sig (Elt F))), Proc.devRef .tc main_v0 ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_not_main_v0 : ∀ op ∈ (hostOps1_5 : List (HloOp τ sig (Elt F))), Proc.devRef .tc main_v0 ∉ op.writes := by
  intro op hop
  simp only [hostOps1_5, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_not_main_v0 : ∀ op ∈ (hostOps1_6 : List (HloOp τ sig (Elt F))), Proc.devRef .tc main_v0 ∉ op.writes := by
  intro op hop
  simp only [hostOps1_6, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_not_main_v0 : ∀ op ∈ (hostOps1_7 : List (HloOp τ sig (Elt F))), Proc.devRef .tc main_v0 ∉ op.writes := by
  intro op hop
  simp only [hostOps1_7, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_not_main_v0 : ∀ op ∈ (hostOps1_8 : List (HloOp τ sig (Elt F))), Proc.devRef .tc main_v0 ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_not_main_v1 : ∀ op ∈ (hostOps1 : List (HloOp τ sig (Elt F))), Proc.devRef .tc main_v1 ∉ op.writes := by
  intro op hop
  simp only [hostOps1, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_not_main_v1 : ∀ op ∈ (hostOps1_1 : List (HloOp τ sig (Elt F))), Proc.devRef .tc main_v1 ∉ op.writes := by
  intro op hop
  simp only [hostOps1_1, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_not_main_v1 : ∀ op ∈ (hostOps1_2 : List (HloOp τ sig (Elt F))), Proc.devRef .tc main_v1 ∉ op.writes := by
  intro op hop
  simp only [hostOps1_2, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_not_main_v1 : ∀ op ∈ (hostOps1_3 : List (HloOp τ sig (Elt F))), Proc.devRef .tc main_v1 ∉ op.writes := by
  intro op hop
  simp only [hostOps1_3, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_not_main_v1 : ∀ op ∈ (hostOps1_4 : List (HloOp τ sig (Elt F))), Proc.devRef .tc main_v1 ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_not_main_v1 : ∀ op ∈ (hostOps1_5 : List (HloOp τ sig (Elt F))), Proc.devRef .tc main_v1 ∉ op.writes := by
  intro op hop
  simp only [hostOps1_5, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_not_main_v1 : ∀ op ∈ (hostOps1_6 : List (HloOp τ sig (Elt F))), Proc.devRef .tc main_v1 ∉ op.writes := by
  intro op hop
  simp only [hostOps1_6, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_not_main_v1 : ∀ op ∈ (hostOps1_7 : List (HloOp τ sig (Elt F))), Proc.devRef .tc main_v1 ∉ op.writes := by
  intro op hop
  simp only [hostOps1_7, List.mem_cons, List.mem_nil_iff, or_false] at hop
  rcases hop with rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_not_main_v1 : ∀ op ∈ (hostOps1_8 : List (HloOp τ sig (Elt F))), Proc.devRef .tc main_v1 ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No later line writes `main_arg0`. -/
theorem tail_not_main_arg0 : ∀ op ∈ ([hostOps1, hostOps1_1, hostOps1_2, hostOps1_3, hostOps1_4, hostOps1_5, hostOps1_6, hostOps1_7, hostOps1_8] : List (List (HloOp τ sig (Elt F)))).flatten, Proc.devRef .tc main_arg0 ∉ op.writes := by
  intro op hop
  simp only [List.flatten_cons, List.flatten_nil, List.append_nil, List.mem_append] at hop
  rcases hop with h | h | h | h | h | h | h | h | h
  · exact hostOps1_not_main_arg0 op h
  · exact hostOps1_1_not_main_arg0 op h
  · exact hostOps1_2_not_main_arg0 op h
  · exact hostOps1_3_not_main_arg0 op h
  · exact hostOps1_4_not_main_arg0 op h
  · exact hostOps1_5_not_main_arg0 op h
  · exact hostOps1_6_not_main_arg0 op h
  · exact hostOps1_7_not_main_arg0 op h
  · exact hostOps1_8_not_main_arg0 op h

/-- No later line writes `main_arg1`. -/
theorem tail_not_main_arg1 : ∀ op ∈ ([hostOps1, hostOps1_1, hostOps1_2, hostOps1_3, hostOps1_4, hostOps1_5, hostOps1_6, hostOps1_7, hostOps1_8] : List (List (HloOp τ sig (Elt F)))).flatten, Proc.devRef .tc main_arg1 ∉ op.writes := by
  intro op hop
  simp only [List.flatten_cons, List.flatten_nil, List.append_nil, List.mem_append] at hop
  rcases hop with h | h | h | h | h | h | h | h | h
  · exact hostOps1_not_main_arg1 op h
  · exact hostOps1_1_not_main_arg1 op h
  · exact hostOps1_2_not_main_arg1 op h
  · exact hostOps1_3_not_main_arg1 op h
  · exact hostOps1_4_not_main_arg1 op h
  · exact hostOps1_5_not_main_arg1 op h
  · exact hostOps1_6_not_main_arg1 op h
  · exact hostOps1_7_not_main_arg1 op h
  · exact hostOps1_8_not_main_arg1 op h

/-- No later line writes `main_v0`. -/
theorem tail_not_main_v0 : ∀ op ∈ ([hostOps1, hostOps1_1, hostOps1_2, hostOps1_3, hostOps1_4, hostOps1_5, hostOps1_6, hostOps1_7, hostOps1_8] : List (List (HloOp τ sig (Elt F)))).flatten, Proc.devRef .tc main_v0 ∉ op.writes := by
  intro op hop
  simp only [List.flatten_cons, List.flatten_nil, List.append_nil, List.mem_append] at hop
  rcases hop with h | h | h | h | h | h | h | h | h
  · exact hostOps1_not_main_v0 op h
  · exact hostOps1_1_not_main_v0 op h
  · exact hostOps1_2_not_main_v0 op h
  · exact hostOps1_3_not_main_v0 op h
  · exact hostOps1_4_not_main_v0 op h
  · exact hostOps1_5_not_main_v0 op h
  · exact hostOps1_6_not_main_v0 op h
  · exact hostOps1_7_not_main_v0 op h
  · exact hostOps1_8_not_main_v0 op h

/-- No later line writes `main_v1`. -/
theorem tail_not_main_v1 : ∀ op ∈ ([hostOps1, hostOps1_1, hostOps1_2, hostOps1_3, hostOps1_4, hostOps1_5, hostOps1_6, hostOps1_7, hostOps1_8] : List (List (HloOp τ sig (Elt F)))).flatten, Proc.devRef .tc main_v1 ∉ op.writes := by
  intro op hop
  simp only [List.flatten_cons, List.flatten_nil, List.append_nil, List.mem_append] at hop
  rcases hop with h | h | h | h | h | h | h | h | h
  · exact hostOps1_not_main_v1 op h
  · exact hostOps1_1_not_main_v1 op h
  · exact hostOps1_2_not_main_v1 op h
  · exact hostOps1_3_not_main_v1 op h
  · exact hostOps1_4_not_main_v1 op h
  · exact hostOps1_5_not_main_v1 op h
  · exact hostOps1_6_not_main_v1 op h
  · exact hostOps1_7_not_main_v1 op h
  · exact hostOps1_8_not_main_v1 op h

end Cert.KernelIdeal.Around

end
-- ==== Proof.IdealRun.lean ====
/-
  The grid's run, point by point, and the whole program's run around it.

  At a point the body is handed the input block in one staging buffer and anything in the output's; it loads the
  four channel slabs it uses (channels 0, 1, 2, 4 of the 5 × 8 × 50 block), computes the 8 × 50 × 27 × 27
  contributions and stores them over the whole output buffer. The input buffer is left as it was, so at every point
  it holds the block of the padded array; the output buffer ends at `outBlk` of that block. The pipeline then writes
  the output block back at every point, and the lines after the grid read the output array and the arguments.
-/
import proofs.«140136_j738734375140_2_alg».proof.Proof.IdealAround

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input's staging buffer holds the point's block of the padded array at every point, whenever the body leaves
    that buffer as it found it: the window is fetched at every point and never idle. -/
theorem before_in {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The four channel slabs the body loads: channel 0 (confidence), 1 (x), 2 (y) and 4 (scale) of the block. -/
abbrev rV : Rect S1x5x8x50 := Rect.unit (s := S1x5x8x50) ![0, 0, 0, 0] S1x1x8x50.size inb_S1x5x8x50_S1x1x8x50_0_0_0_0
abbrev rXr : Rect S1x5x8x50 := Rect.unit (s := S1x5x8x50) ![0, 1, 0, 0] S1x1x8x50.size inb_S1x5x8x50_S1x1x8x50_0_1_0_0
abbrev rYr : Rect S1x5x8x50 := Rect.unit (s := S1x5x8x50) ![0, 2, 0, 0] S1x1x8x50.size inb_S1x5x8x50_S1x1x8x50_0_2_0_0
abbrev rSc : Rect S1x5x8x50 := Rect.unit (s := S1x5x8x50) ![0, 4, 0, 0] S1x1x8x50.size inb_S1x5x8x50_S1x1x8x50_0_4_0_0
/-- The one store covers the whole output block. -/
abbrev rOut : Rect S1x8x50x27x27 := Rect.unit (s := S1x8x50x27x27) ![0, 0, 0, 0, 0] S1x8x50x27x27.size inb_S1x8x50x27x27_S1x8x50x27x27_0_0_0_0_0

/-- The stored contributions as a function of the four loaded slabs: the body's arithmetic, composed. -/
def payOf (v0 v2 v4 v6 : Vec F S1x1x8x50 .f32) : FVec F S1x8x50x27x27 .f32 :=
  k0_pay1 (k0_pay7 v0) (k0_pay8 v0 v6) (k0_pay14 (k0_pay4 v2) (k0_pay9 v2)) (k0_pay15 (k0_pay5 v4) (k0_pay10 v4)) (k0_pay16 (k0_pay6 v6))
    (k0_pay17 (k0_pay4 v2) (k0_pay5 v4) (k0_pay9 v2) (k0_pay10 v4)) (k0_pay18 (F := F) (k0_pay9 v2) (k0_pay10 v4))
    (k0_pay19 (k0_pay4 v2) (k0_pay5 v4) (k0_pay6 v6) (k0_pay9 v2) (k0_pay10 v4))

/-- What the output's staging buffer holds after the body, from the input block. -/
def outBlk (x0 : Vec F S1x5x8x50 .f32) : Vec F S1x8x50x27x27 .f32 :=
  View.canon [⟨rOut, payOf (View.ld x0 rV) (View.ld x0 rXr) (View.ld x0 rYr) (View.ld x0 rSc)⟩]

/-- The store's rectangle is the whole buffer. -/
theorem cover_out (p0 : Vec F S1x8x50x27x27 .f32) (y : S1x8x50x27x27.Idx) :
    ∃ pc ∈ ([⟨rOut, p0⟩] : List (View.Piece (Elt F) S1x8x50x27x27 .f32)), y ∈ pc.1.set :=
  View.cover_of_tiled [⟨rOut, p0⟩] S1x8x50x27x27.size (by rfl) y

/-! ## The body's triple -/

set_option maxHeartbeats 4000000 in
/-- The body on whole staging buffers, the input's at contents `x0` and the output's at anything, runs to its end with
    the input's unchanged and the output's at `outBlk x0`. -/
theorem sound_kernel (c : Dev nD) (E : Set ℕ) (i : grid0.Coords) (arg2 : Memref sig .tc .vmem S1x5x8x50 .f32) (harg2 : arg2.IsWhole) (arg3 : Memref sig .tc .vmem S1x8x50x27x27 .f32) (harg3 : arg3.IsWhole)
    (x0 : Vec F S1x5x8x50 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outBlk x0)) -∗ K ⟨⟩))
      ⊢ wp frame (wpE (defs₀ (F := F)) Variants.none c none) E (cc0__contrib_kernel i arg2 harg2 arg3 harg3) K := by
  simp only [cc0__contrib_kernel_eq_skeleton]; unfold cc0__contrib_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The grid's proof data -/

/-- On core `c`: the arrays as the grid finds them; after the body at point `t` the input's buffer at its block and
    the output's at `outBlk` of that block; nothing else is used or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlk (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in (c : Dev nD) (t : Fin cfg0.N) : (dats m 0 c).after 0 t = iblk m c 0 t := by dsimp only [dats]
theorem after_out (c : Dev nD) (t : Fin cfg0.N) : (dats m 0 c).after 1 t = outBlk (iblk m c 0 t) := by dsimp only [dats]
theorem before_in_dats (c : Dev nD) (t : Fin cfg0.N) (d) : (dats m 0 c).before 0 t d = iblk m c 0 t :=
  before_in m (dats m 0 c) (A_eq m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in_dats]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end the grid's two arrays hold what the write-backs left
    and every other unscoped buffer what the later host lines computed from them. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8]) (hsub := tail_sub) (hfresh := tail_fresh) (hkeep := tail_keeps)
    (hmain := hmain m Variants.none) (hA := A_eq m) (hΦ := fun _ _ => rfl)

/-- A buffer no later line writes, and that is no array of the grid, ends at what the grid found in it. -/
theorem tail_kept (c : Dev nD) (b : Ref sig .tc) (hb : ∀ w, Pipeline.arrRef spec0 w ≠ b)
    (hw : ∀ op ∈ ([hostOps1, hostOps1_1, hostOps1_2, hostOps1_3, hostOps1_4, hostOps1_5, hostOps1_6, hostOps1_7, hostOps1_8] : List (List (HloOp τ sig (Elt F)))).flatten, Proc.devRef .tc b ∉ op.writes) :
    Pipeline.afterTail₀ cfgs (dats m) 0 (V0 m) [hostOps1, hostOps1_1, hostOps1_2, hostOps1_3, hostOps1_4, hostOps1_5, hostOps1_6, hostOps1_7, hostOps1_8] c b = V m c b := by
  unfold Pipeline.afterTail₀
  rw [StableHlo.after_of_forall_not_mem (b := Proc.devRef .tc b) _ _ hw,
    Pipeline.withArrays_of_ne _ c (V0 m c) _ b hb]

/-- The arguments end as launched. -/
theorem end_main_arg0 (c : Dev nD) :
    Pipeline.afterTail₀ cfgs (dats m) 0 (V0 m) [hostOps1, hostOps1_1, hostOps1_2, hostOps1_3, hostOps1_4, hostOps1_5, hostOps1_6, hostOps1_7, hostOps1_8] c main_arg0 = m ((c : Thread nD τ).loc main_arg0) :=
  (tail_kept m c main_arg0 (by decide) tail_not_main_arg0).trans (V_main_arg0 m c)
theorem end_main_arg1 (c : Dev nD) :
    Pipeline.afterTail₀ cfgs (dats m) 0 (V0 m) [hostOps1, hostOps1_1, hostOps1_2, hostOps1_3, hostOps1_4, hostOps1_5, hostOps1_6, hostOps1_7, hostOps1_8] c main_arg1 = m ((c : Thread nD τ).loc main_arg1) :=
  (tail_kept m c main_arg1 (by decide) tail_not_main_arg1).trans (V_main_arg1 m c)

/-- THE FRAME: the program terminates without a fault and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (end_main_arg0 m c),
     ((h c).2 main_arg1 (Pipeline.mem_restRefs_of main_arg1 (by decide) (by decide))).trans (end_main_arg1 m c)⟩) (run_main m ρ)

end Cert.KernelIdeal.Around

end
-- ==== Proof.IdealValue.lean ====
/-
  The grid's output array after the run, as ONE function of the padded input.

  Point (f, k) of the 17 × 5 grid writes the 1 × 8 × 50 × 27 × 27 block at field f, rows 8k … 8k+7 of the output, and
  what it writes at row r of the block depends only on the four channel entries of the padded input at field f, row
  8k + r. The 85 blocks tile the 17 × 40 × 50 × 27 × 27 array, so at the end entry (f, h, w, a, b) of the array is
  the body's arithmetic `payOf` of the channel slabs of rows 8⌊h/8⌋ … 8⌊h/8⌋+7 of field f, read at (h mod 8, w, a, b).
-/
import proofs.«140136_j738734375140_2_alg».proof.Proof.IdealRun
import Idealize.ShloMosaic.Lib.Pipeline.Value
import Idealize.ShloMosaic.Lib.ValueIdx
import Idealize.ShloMosaic.Lib.KernelVsHost
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

theorem zeros5 : (![0, 0, 0, 0, 0] : Fin 5 → Nat) = fun _ => 0 := funext fun a => by fin_cases a <;> rfl

/-- The stored value depends on the four slabs and the index only. -/
theorem payOf_congr {A A' B B' C C' D D' : Vec F S1x1x8x50 .f32} {y y' : S1x8x50x27x27.Idx}
    (hA : A = A') (hB : B = B') (hC : C = C') (hD : D = D') (hy : y = y') :
    payOf A B C D y = payOf A' B' C' D' y' := by subst hA hB hC hD hy; rfl

/-- Entry `y` of channel `ch`'s slab for the output entry `j`: field `j 0`, row 8⌊(j 1)/8⌋ + (y 2), column `y 3`. -/
def inIdx (j : S17x40x50x27x27.Idx) (ch : Fin 5) (y : S1x1x8x50.Idx) : S17x5x40x50.Idx :=
  ix4 (⟨(j 0).val, (j 0).isLt⟩ : Fin 17) ch
    (⟨(j 1).val / 8 * 8 + (y 2).val, by have h1 : (j 1).val < 40 := (j 1).isLt; have h2 : (y 2).val < 8 := (y 2).isLt; omega⟩ : Fin 40)
    (⟨(y 3).val, (y 3).isLt⟩ : Fin 50)

/-- Where output entry `j` sits inside its block. -/
def outIdx (j : S17x40x50x27x27.Idx) : S1x8x50x27x27.Idx :=
  ix5 (0 : Fin 1) (⟨(j 1).val % 8, Nat.mod_lt _ (by decide)⟩ : Fin 8) (⟨(j 2).val, (j 2).isLt⟩ : Fin 50)
    (⟨(j 3).val, (j 3).isLt⟩ : Fin 27) (⟨(j 4).val, (j 4).isLt⟩ : Fin 27)

/-- The output array as a function of the padded input `xp`. -/
def G (xp : S17x5x40x50.Idx → Elt F .f32) : S17x40x50x27x27.Idx → Elt F .f32 := fun j =>
  payOf (fun y => xp (inIdx j 0 y)) (fun y => xp (inIdx j 1 y)) (fun y => xp (inIdx j 2 y)) (fun y => xp (inIdx j 4 y)) (outIdx j)

/-- The two index maps over the grid: the input block is at (f, 0, k, 0) and the output block at (f, k, 0, 0, 0),
    f < 17 and k < 5 the point's coordinates. -/
theorem idx_facts : ∀ t : Fin cfg0.N,
    win0_0.index t (0 : Fin 4) = win0_1.index t (0 : Fin 5) ∧ win0_0.index t (1 : Fin 4) = 0
    ∧ win0_0.index t (2 : Fin 4) = win0_1.index t (1 : Fin 5) ∧ win0_0.index t (3 : Fin 4) = 0
    ∧ win0_1.index t (2 : Fin 5) = 0 ∧ win0_1.index t (3 : Fin 5) = 0 ∧ win0_1.index t (4 : Fin 5) = 0
    ∧ win0_1.index t (0 : Fin 5) ≤ 16 ∧ win0_1.index t (1 : Fin 5) ≤ 4 :=
  (by decide +kernel : ∀ t : Fin grid0.N, _)

/-- Every (field, row block) is some point's. -/
theorem idx_onto : ∀ (q0 : Fin 17) (q1 : Fin 5), ∃ t : Fin cfg0.N, win0_1.index t = ![q0.val, q1.val, 0, 0, 0] :=
  (by decide +kernel : ∀ (q0 : Fin 17) (q1 : Fin 5), ∃ t : Fin grid0.N, win0_1.index t = ![q0.val, q1.val, 0, 0, 0])

/-- WHAT POINT `t` WRITES BACK is block `t` of `G` of the padded input as the grid finds it. -/
theorem flushed_out (c : Dev nD) (t : Fin cfg0.N) :
    (dats m 0 c).flushed 1 t = ((cfg0.win 1).blk t).view.read (Elt F) (G (V m c main_v0)) := by
  show (cfg0.win 1).cut (grid0.coords t) ((dats m 0 c).after 1 t) = _
  rw [after_out]
  unfold outBlk
  rw [View.canon_unit_zero zeros5]
  obtain ⟨e0, e1, e2, e3, e4, e5, e6, e7, e8⟩ := idx_facts t
  funext y
  show payOf (View.ld (iblk m c 0 t) rV) (View.ld (iblk m c 0 t) rXr) (View.ld (iblk m c 0 t) rYr) (View.ld (iblk m c 0 t) rSc) y
     = G (V m c main_v0) (((cfg0.win 1).blk t).view.emb y)
  unfold G
  refine payOf_congr ?_ ?_ ?_ ?_ ?_
  · funext z
    show V m c main_v0 (((cfg0.win 0).blk t).view.emb (rV.idx z)) = V m c main_v0 (inIdx (((cfg0.win 1).blk t).view.emb y) 0 z)
    refine congrArg _ (funext fun a => Fin.ext ?_)
    have hz0 : (z 0).val < 1 := (z 0).isLt
    have hz1 : (z 1).val < 1 := (z 1).isLt
    have hz2 : (z 2).val < 8 := (z 2).isLt
    have hy0 : (y 0).val < 1 := (y 0).isLt
    have hy1 : (y 1).val < 8 := (y 1).isLt
    match a with
    | ⟨0, _⟩ => show win0_0.index t (0 : Fin 4) * 1 + 1 * (0 + 1 * (z 0).val) = win0_1.index t (0 : Fin 5) * 1 + 1 * (y 0).val; omega
    | ⟨1, _⟩ => show win0_0.index t (1 : Fin 4) * 5 + 1 * (0 + 1 * (z 1).val) = 0; omega
    | ⟨2, _⟩ => show win0_0.index t (2 : Fin 4) * 8 + 1 * (0 + 1 * (z 2).val) = (win0_1.index t (1 : Fin 5) * 8 + 1 * (y 1).val) / 8 * 8 + (z 2).val; omega
    | ⟨3, _⟩ => show win0_0.index t (3 : Fin 4) * 50 + 1 * (0 + 1 * (z 3).val) = (z 3).val; omega
  · funext z
    show V m c main_v0 (((cfg0.win 0).blk t).view.emb (rXr.idx z)) = V m c main_v0 (inIdx (((cfg0.win 1).blk t).view.emb y) 1 z)
    refine congrArg _ (funext fun a => Fin.ext ?_)
    have hz0 : (z 0).val < 1 := (z 0).isLt
    have hz1 : (z 1).val < 1 := (z 1).isLt
    have hz2 : (z 2).val < 8 := (z 2).isLt
    have hy0 : (y 0).val < 1 := (y 0).isLt
    have hy1 : (y 1).val < 8 := (y 1).isLt
    match a with
    | ⟨0, _⟩ => show win0_0.index t (0 : Fin 4) * 1 + 1 * (0 + 1 * (z 0).val) = win0_1.index t (0 : Fin 5) * 1 + 1 * (y 0).val; omega
    | ⟨1, _⟩ => show win0_0.index t (1 : Fin 4) * 5 + 1 * (1 + 1 * (z 1).val) = 1; omega
    | ⟨2, _⟩ => show win0_0.index t (2 : Fin 4) * 8 + 1 * (0 + 1 * (z 2).val) = (win0_1.index t (1 : Fin 5) * 8 + 1 * (y 1).val) / 8 * 8 + (z 2).val; omega
    | ⟨3, _⟩ => show win0_0.index t (3 : Fin 4) * 50 + 1 * (0 + 1 * (z 3).val) = (z 3).val; omega
  · funext z
    show V m c main_v0 (((cfg0.win 0).blk t).view.emb (rYr.idx z)) = V m c main_v0 (inIdx (((cfg0.win 1).blk t).view.emb y) 2 z)
    refine congrArg _ (funext fun a => Fin.ext ?_)
    have hz0 : (z 0).val < 1 := (z 0).isLt
    have hz1 : (z 1).val < 1 := (z 1).isLt
    have hz2 : (z 2).val < 8 := (z 2).isLt
    have hy0 : (y 0).val < 1 := (y 0).isLt
    have hy1 : (y 1).val < 8 := (y 1).isLt
    match a with
    | ⟨0, _⟩ => show win0_0.index t (0 : Fin 4) * 1 + 1 * (0 + 1 * (z 0).val) = win0_1.index t (0 : Fin 5) * 1 + 1 * (y 0).val; omega
    | ⟨1, _⟩ => show win0_0.index t (1 : Fin 4) * 5 + 1 * (2 + 1 * (z 1).val) = 2; omega
    | ⟨2, _⟩ => show win0_0.index t (2 : Fin 4) * 8 + 1 * (0 + 1 * (z 2).val) = (win0_1.index t (1 : Fin 5) * 8 + 1 * (y 1).val) / 8 * 8 + (z 2).val; omega
    | ⟨3, _⟩ => show win0_0.index t (3 : Fin 4) * 50 + 1 * (0 + 1 * (z 3).val) = (z 3).val; omega
  · funext z
    show V m c main_v0 (((cfg0.win 0).blk t).view.emb (rSc.idx z)) = V m c main_v0 (inIdx (((cfg0.win 1).blk t).view.emb y) 4 z)
    refine congrArg _ (funext fun a => Fin.ext ?_)
    have hz0 : (z 0).val < 1 := (z 0).isLt
    have hz1 : (z 1).val < 1 := (z 1).isLt
    have hz2 : (z 2).val < 8 := (z 2).isLt
    have hy0 : (y 0).val < 1 := (y 0).isLt
    have hy1 : (y 1).val < 8 := (y 1).isLt
    match a with
    | ⟨0, _⟩ => show win0_0.index t (0 : Fin 4) * 1 + 1 * (0 + 1 * (z 0).val) = win0_1.index t (0 : Fin 5) * 1 + 1 * (y 0).val; omega
    | ⟨1, _⟩ => show win0_0.index t (1 : Fin 4) * 5 + 1 * (4 + 1 * (z 1).val) = 4; omega
    | ⟨2, _⟩ => show win0_0.index t (2 : Fin 4) * 8 + 1 * (0 + 1 * (z 2).val) = (win0_1.index t (1 : Fin 5) * 8 + 1 * (y 1).val) / 8 * 8 + (z 2).val; omega
    | ⟨3, _⟩ => show win0_0.index t (3 : Fin 4) * 50 + 1 * (0 + 1 * (z 3).val) = (z 3).val; omega
  · funext a
    apply Fin.ext
    have hy0 : (y 0).val < 1 := (y 0).isLt
    have hy1 : (y 1).val < 8 := (y 1).isLt
    match a with
    | ⟨0, _⟩ => show (y 0).val = 0; omega
    | ⟨1, _⟩ => show (y 1).val = (win0_1.index t (1 : Fin 5) * 8 + 1 * (y 1).val) % 8; omega
    | ⟨2, _⟩ => show (y 2).val = win0_1.index t (2 : Fin 5) * 50 + 1 * (y 2).val; omega
    | ⟨3, _⟩ => show (y 3).val = win0_1.index t (3 : Fin 5) * 27 + 1 * (y 3).val; omega
    | ⟨4, _⟩ => show (y 4).val = win0_1.index t (4 : Fin 5) * 27 + 1 * (y 4).val; omega

/-- An entry of the output array is in point `t`'s block iff each coordinate is in the block's range on its axis. -/
theorem mem_blk_out (t : Fin cfg0.N) (i : S17x40x50x27x27.Idx) :
    i ∈ ((cfg0.win 1).blk t).view.set ↔ ∀ a : Fin 5, win0_1.index t a * S1x8x50x27x27.size a ≤ (i a).val ∧ (i a).val < win0_1.index t a * S1x8x50x27x27.size a + S1x8x50x27x27.size a := by
  show i ∈ ((View.whole main_v1).slice (win0_1.rect t)).set ↔ _
  rw [View.set_slice_whole, Rect.mem_set_unit]
  exact Iff.rfl

/-- The 85 blocks fill the array: entry (f, h, …) is in the block of the point with coordinates (f, ⌊h/8⌋). -/
theorem covered (i : S17x40x50x27x27.Idx) :
    ∃ t : Fin cfg0.N, (cfg0.win 1).flush t = true ∧ i ∈ ((cfg0.win 1).blk t).view.set := by
  have h0 : (i 0).val < 17 := (i 0).isLt
  have h1 : (i 1).val < 40 := (i 1).isLt
  have h2 : (i 2).val < 50 := (i 2).isLt
  have h3 : (i 3).val < 27 := (i 3).isLt
  have h4 : (i 4).val < 27 := (i 4).isLt
  obtain ⟨t, ht⟩ := idx_onto ⟨(i 0).val, h0⟩ ⟨(i 1).val / 8, by omega⟩
  have q0 : win0_1.index t (0 : Fin 5) = (i 0).val := congrFun ht 0
  have q1 : win0_1.index t (1 : Fin 5) = (i 1).val / 8 := congrFun ht 1
  have q2 : win0_1.index t (2 : Fin 5) = 0 := congrFun ht 2
  have q3 : win0_1.index t (3 : Fin 5) = 0 := congrFun ht 3
  have q4 : win0_1.index t (4 : Fin 5) = 0 := congrFun ht 4
  refine ⟨t, flush0_1 t, ?_⟩
  rw [mem_blk_out]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 8 ≤ (i 1).val ∧ (i 1).val < win0_1.index t (1 : Fin 5) * 8 + 8; omega
  | ⟨2, _⟩ => show win0_1.index t (2 : Fin 5) * 50 ≤ (i 2).val ∧ (i 2).val < win0_1.index t (2 : Fin 5) * 50 + 50; omega
  | ⟨3, _⟩ => show win0_1.index t (3 : Fin 5) * 27 ≤ (i 3).val ∧ (i 3).val < win0_1.index t (3 : Fin 5) * 27 + 27; omega
  | ⟨4, _⟩ => show win0_1.index t (4 : Fin 5) * 27 ≤ (i 4).val ∧ (i 4).val < win0_1.index t (4 : Fin 5) * 27 + 27; omega

/-- THE OUTPUT ARRAY after the grid is `G` of the padded input. -/
theorem final_out (c : Dev nD) : (dats m 0 c).arrAt 1 cfg0.N = G (V m c main_v0) :=
  (dats m 0 c).arrAt_eq_of_cover 1 (G (V m c main_v0)) (fun t _ => flushed_out m c t) covered

/-! ## The padded input -/

/-- The grid's input array is `x` with two rows of the padding value appended on the row axis. -/
theorem V_main_v0 (c : Dev nD) :
    (V m c main_v0 : S17x5x40x50.Idx → Elt F .f32)
      = pad S17x5x40x50 ![0, 0, 0, 0] ![0, 0, 2, 0] ![0, 0, 0, 0] (m ((c : Thread nD τ).loc main_arg1)) (sitofp (F := F) .f32 (constantI S_ 32 0#32))
          pads_S17x5x38x50_S17x5x40x50_000_000_020_000 h_S_ := by
  dsimp only [V, V0]
  simp only [hostOps0, hostOps0_1, List.flatten_cons, List.flatten_nil, List.append_nil, List.cons_append, List.nil_append]
  after_results
  rfl

/-- On the 38 true rows the padded input is `x`. -/
theorem xp_at (c : Dev nD) (f : Fin 17) (ch : Fin 5) (h : Fin 38) (w : Fin 50) :
    V m c main_v0 (ix4 f ch (⟨h.val, by have := h.isLt; omega⟩ : Fin 40) w) = m ((c : Thread nD τ).loc main_arg1) (ix4 f ch h w) := by
  rw [V_main_v0]
  refine pad_apply_of_inside _ _ _ _ _ _ _ _ (ix4 f ch h w) (fun a => ?_)
  match a with
  | ⟨0, _⟩ => show f.val = 0 + f.val * (0 + 1); omega
  | ⟨1, _⟩ => show ch.val = 0 + ch.val * (0 + 1); omega
  | ⟨2, _⟩ => show h.val = 0 + h.val * (0 + 1); omega
  | ⟨3, _⟩ => show w.val = 0 + w.val * (0 + 1); omega

end Cert.KernelIdeal.Around

end
-- ==== Proof.KerContrib.lean ====
/-
  The kernel's stored value read at one index.

  One grid point of the kernel loads four slabs of the field array (the value, the two relative
  coordinates and the scale of an 8 x 50 tile of field points) and stores, for every field point
  (r, w) of the tile and every cell (a, b) of a 27 x 27 window around the point's rounded position,
  one number: the point's contribution to that cell. Everything the body computes is elementwise up
  to broadcasts along the window axes, so the stored element at (0, r, w, a, b) is a scalar function
  kerAt of the four loaded numbers at (0, 0, r, w) and of the window cell (a, b). This module
  defines that scalar function as the literal composition of the body's scalar operations, in program
  order, and proves the reading (payOf_at). No algebra is done here: one-bit conditions stay one-bit
  words, integers stay 32-bit words, float literals stay the words the program has.
-/
import proofs.«140136_j738734375140_2_alg».proof.Proof.Gen.KernelIdeal.Skeleton
import Idealize.ShloMosaic.Lib.ValueIdx
import Idealize.ShloMosaic.Lib.Pipeline.Value
import Idealize.ShloMosaic.Lib.ValueLayout

noncomputable section

namespace Cert.KernelIdeal.KerContrib

open Cert.KernelIdeal Cert.KernelIdeal.Gen Idealize.ShloMosaic Idealize.ShloMosaic.ValueIdx

/-! ## What the body stores, as a function of its four loads -/

/-- The stored vector as a function of the four loaded slabs (value, x, y, scale channels). -/
def payOf (v0 v2 v4 v6 : Vec Ideal S1x1x8x50 .f32) : FVec Ideal S1x8x50x27x27 .f32 :=
  k0_pay1 (F := Ideal) (k0_pay7 (F := Ideal) v0) (k0_pay8 (F := Ideal) v0 v6)
    (k0_pay14 (F := Ideal) (k0_pay4 (F := Ideal) v2) (k0_pay9 (F := Ideal) v2))
    (k0_pay15 (F := Ideal) (k0_pay5 (F := Ideal) v4) (k0_pay10 (F := Ideal) v4))
    (k0_pay16 (F := Ideal) (k0_pay6 (F := Ideal) v6))
    (k0_pay17 (F := Ideal) (k0_pay4 (F := Ideal) v2) (k0_pay5 (F := Ideal) v4) (k0_pay9 (F := Ideal) v2) (k0_pay10 (F := Ideal) v4))
    (k0_pay18 (F := Ideal) (k0_pay9 (F := Ideal) v2) (k0_pay10 (F := Ideal) v4))
    (k0_pay19 (F := Ideal) (k0_pay4 (F := Ideal) v2) (k0_pay5 (F := Ideal) v4) (k0_pay6 (F := Ideal) v6) (k0_pay9 (F := Ideal) v2) (k0_pay10 (F := Ideal) v4))

/-! ## Layout operations of the body at an index

Each unit axis inserted by a shape cast and then stretched by a broadcast reads the operand at the
remaining coordinates. Row-major positions are compared as sums of products of literals. -/

section Layout
variable {α : Type}

/-- A [1,1,8,50] slab read as [8,50]: (r, w) is (0, 0, r, w). -/
theorem cast_slab (x : (⟨4, ![1, 1, 8, 50]⟩ : Shape).Idx → α)
    (h : (⟨4, ![1, 1, 8, 50]⟩ : Shape).ShapeCasts ⟨2, ![8, 50]⟩) (r : Fin 8) (w : Fin 50) :
    shapeCast ⟨2, ![8, 50]⟩ x h (ix2 r w) = x (ix4 (0 : Fin 1) (0 : Fin 1) r w) :=
  shapeCast_apply x h _ _ (by
    rw [Shape.rowMajor_val_four, Shape.rowMajor_val_two]
    show ((0 * 1 + 0) * 8 + r.val) * 50 + w.val = r.val * 50 + w.val
    omega)

/-- An [8,50,27,27] vector stored as [1,8,50,27,27]: (u, r, w, a, b) is (r, w, a, b). -/
theorem cast_out (x : (⟨4, ![8, 50, 27, 27]⟩ : Shape).Idx → α)
    (h : (⟨4, ![8, 50, 27, 27]⟩ : Shape).ShapeCasts ⟨5, ![1, 8, 50, 27, 27]⟩)
    (u : Fin 1) (r : Fin 8) (w : Fin 50) (a b : Fin 27) :
    shapeCast ⟨5, ![1, 8, 50, 27, 27]⟩ x h (ix5 u r w a b) = x (ix4 r w a b) :=
  shapeCast_apply x h _ _ (by
    have hu : u.val = 0 := by omega
    rw [Shape.rowMajor_val_four, Shape.rowMajor_val_five]
    show ((r.val * 50 + w.val) * 27 + a.val) * 27 + b.val
      = (((u.val * 8 + r.val) * 50 + w.val) * 27 + a.val) * 27 + b.val
    rw [hu]; omega)

/-- A per-point value [8,50] spread over the whole window [8,50,27,27]. -/
theorem spread_point (x : (⟨2, ![8, 50]⟩ : Shape).Idx → α)
    (h1 : (⟨2, ![8, 50]⟩ : Shape).ShapeCasts ⟨4, ![8, 50, 1, 1]⟩)
    (h2 : (⟨4, ![8, 50, 1, 1]⟩ : Shape).Broadcasts ⟨4, ![8, 50, 27, 27]⟩)
    (r : Fin 8) (w : Fin 50) (a b : Fin 27) :
    broadcastTo ⟨4, ![8, 50, 27, 27]⟩ (shapeCast ⟨4, ![8, 50, 1, 1]⟩ x h1) h2 (ix4 r w a b) = x (ix2 r w) := by
  refine (broadcastTo_apply _ h2 (ix4 r w a b) (ix4 r w (0 : Fin 1) (0 : Fin 1)) fun ax => ?_).trans ?_
  · match ax with
    | ⟨0, _⟩ => rfl
    | ⟨1, _⟩ => rfl
    | ⟨2, _⟩ => rfl
    | ⟨3, _⟩ => rfl
  · exact shapeCast_apply x h1 _ _ (by
      rw [Shape.rowMajor_val_two, Shape.rowMajor_val_four]
      show r.val * 50 + w.val = ((r.val * 50 + w.val) * 1 + 0) * 1 + 0
      omega)

/-- A per-row value [8,50,27] (indexed by the window row) spread along the window columns. -/
theorem spread_row (x : (⟨3, ![8, 50, 27]⟩ : Shape).Idx → α)
    (h1 : (⟨3, ![8, 50, 27]⟩ : Shape).ShapeCasts ⟨4, ![8, 50, 27, 1]⟩)
    (h2 : (⟨4, ![8, 50, 27, 1]⟩ : Shape).Broadcasts ⟨4, ![8, 50, 27, 27]⟩)
    (r : Fin 8) (w : Fin 50) (a b : Fin 27) :
    broadcastTo ⟨4, ![8, 50, 27, 27]⟩ (shapeCast ⟨4, ![8, 50, 27, 1]⟩ x h1) h2 (ix4 r w a b) = x (ix3 r w a) := by
  refine (broadcastTo_apply _ h2 (ix4 r w a b) (ix4 r w a (0 : Fin 1)) fun ax => ?_).trans ?_
  · match ax with
    | ⟨0, _⟩ => rfl
    | ⟨1, _⟩ => rfl
    | ⟨2, _⟩ => rfl
    | ⟨3, _⟩ => rfl
  · exact shapeCast_apply x h1 _ _ (by
      rw [Shape.rowMajor_val_three, Shape.rowMajor_val_four]
      show (r.val * 50 + w.val) * 27 + a.val = ((r.val * 50 + w.val) * 27 + a.val) * 1 + 0
      omega)

/-- A per-column value [8,50,27] (indexed by the window column) spread along the window rows. -/
theorem spread_col (x : (⟨3, ![8, 50, 27]⟩ : Shape).Idx → α)
    (h1 : (⟨3, ![8, 50, 27]⟩ : Shape).ShapeCasts ⟨4, ![8, 50, 1, 27]⟩)
    (h2 : (⟨4, ![8, 50, 1, 27]⟩ : Shape).Broadcasts ⟨4, ![8, 50, 27, 27]⟩)
    (r : Fin 8) (w : Fin 50) (a b : Fin 27) :
    broadcastTo ⟨4, ![8, 50, 27, 27]⟩ (shapeCast ⟨4, ![8, 50, 1, 27]⟩ x h1) h2 (ix4 r w a b) = x (ix3 r w b) := by
  refine (broadcastTo_apply _ h2 (ix4 r w a b) (ix4 r w (0 : Fin 1) b) fun ax => ?_).trans ?_
  · match ax with
    | ⟨0, _⟩ => rfl
    | ⟨1, _⟩ => rfl
    | ⟨2, _⟩ => rfl
    | ⟨3, _⟩ => rfl
  · exact shapeCast_apply x h1 _ _ (by
      rw [Shape.rowMajor_val_three, Shape.rowMajor_val_four]
      show (r.val * 50 + w.val) * 27 + b.val = ((r.val * 50 + w.val) * 1 + 0) * 27 + b.val
      omega)

/-- A per-point value [8,50] spread along one window axis [8,50,27]. -/
theorem spread_point3 (x : (⟨2, ![8, 50]⟩ : Shape).Idx → α)
    (h1 : (⟨2, ![8, 50]⟩ : Shape).ShapeCasts ⟨3, ![8, 50, 1]⟩)
    (h2 : (⟨3, ![8, 50, 1]⟩ : Shape).Broadcasts ⟨3, ![8, 50, 27]⟩)
    (r : Fin 8) (w : Fin 50) (k : Fin 27) :
    broadcastTo ⟨3, ![8, 50, 27]⟩ (shapeCast ⟨3, ![8, 50, 1]⟩ x h1) h2 (ix3 r w k) = x (ix2 r w) := by
  refine (broadcastTo_apply _ h2 (ix3 r w k) (ix3 r w (0 : Fin 1)) fun ax => ?_).trans ?_
  · match ax with
    | ⟨0, _⟩ => rfl
    | ⟨1, _⟩ => rfl
    | ⟨2, _⟩ => rfl
  · exact shapeCast_apply x h1 _ _ (by
      rw [Shape.rowMajor_val_two, Shape.rowMajor_val_three]
      show r.val * 50 + w.val = (r.val * 50 + w.val) * 1 + 0
      omega)

/-- A per-offset value [27] spread over all the points [8,50,27]. -/
theorem spread_offset (x : (⟨1, ![27]⟩ : Shape).Idx → α)
    (h1 : (⟨1, ![27]⟩ : Shape).ShapeCasts ⟨3, ![1, 1, 27]⟩)
    (h2 : (⟨3, ![1, 1, 27]⟩ : Shape).Broadcasts ⟨3, ![8, 50, 27]⟩)
    (r : Fin 8) (w : Fin 50) (k : Fin 27) :
    broadcastTo ⟨3, ![8, 50, 27]⟩ (shapeCast ⟨3, ![1, 1, 27]⟩ x h1) h2 (ix3 r w k) = x (ix1 k) := by
  refine (broadcastTo_apply _ h2 (ix3 r w k) (ix3 (0 : Fin 1) (0 : Fin 1) k) fun ax => ?_).trans ?_
  · match ax with
    | ⟨0, _⟩ => rfl
    | ⟨1, _⟩ => rfl
    | ⟨2, _⟩ => rfl
  · exact shapeCast_apply x h1 _ _ (by
      rw [Shape.rowMajor_val_one, Shape.rowMajor_val_three]
      show k.val = (0 * 1 + 0) * 27 + k.val
      omega)

/-- The lane counter of a 27-lane row, read as a vector [27]: lane k holds the word k. -/
theorem lane_counter (h : (⟨2, ![1, 27]⟩ : Shape).Iotas .tc 32 [1])
    (h' : (⟨2, ![1, 27]⟩ : Shape).ShapeCasts ⟨1, ![27]⟩) (k : Fin 27) :
    shapeCast ⟨1, ![27]⟩ (iota .tc ⟨2, ![1, 27]⟩ 32 [1] h) h' (ix1 k) = BitVec.ofNat 32 k.val :=
  (shapeCast_1a_a_apply _ h' k).trans (iota_single_apply .tc ⟨2, ![1, 27]⟩ 32 1 h (ix2 (0 : Fin 1) k))

end Layout

/-! ## The body's scalar operations, in program order -/

/-- A one-bit condition widened to a 32-bit word and converted to a float: 1 where it holds, 0 where not. -/
def kerBitF (c : BitVec 1) : Ideal .f32 := FloatOps.sitofp (F := Ideal) .f32 (c.setWidth 32)

/-- The point's x position in cells: the relative coordinate times 8. -/
def kerPx (xr : Ideal .f32) : Ideal .f32 := xr * Ideal.ofBits .f32 0x41000000#32
/-- The point's y position in cells. -/
def kerPy (yr : Ideal .f32) : Ideal .f32 := yr * Ideal.ofBits .f32 0x41000000#32
/-- The spread: the larger of 1 and half the scale times 8. -/
def kerSigma (sc : Ideal .f32) : Ideal .f32 :=
  max (Ideal.ofBits .f32 0x3F800000#32)
    ((Ideal.ofBits .f32 0x3F000000#32 * sc) * Ideal.ofBits .f32 0x41000000#32)
/-- The value carried to the cells: the loaded value times 1/16. -/
def kerVal (v : Ideal .f32) : Ideal .f32 := v * Ideal.ofBits .f32 0x3D800000#32
/-- The point counts: its value is at least 0.1 and its scale times 8 is not negative. -/
def kerValidBit (v sc : Ideal .f32) : BitVec 1 :=
  IntOp.andi (FloatOps.cmpf (F := Ideal) .oge v (Ideal.ofBits .f32 0x3DCCCCCD#32))
    (FloatOps.cmpf (F := Ideal) .oge (sc * Ideal.ofBits .f32 0x41000000#32) (Ideal.ofBits .f32 0x00000000#32))
/-- That condition as a float. -/
def kerValid (v sc : Ideal .f32) : Ideal .f32 := kerBitF (kerValidBit v sc)
/-- The centre cell along x: the position rounded to the nearest integer, ties to even, as a word. -/
def kerCx (xr : Ideal .f32) : BitVec 32 := FloatOps.fptosi (F := Ideal) 32 (FloatOps.roundeven (F := Ideal) (kerPx xr))
/-- The centre cell along y. -/
def kerCy (yr : Ideal .f32) : BitVec 32 := FloatOps.fptosi (F := Ideal) 32 (FloatOps.roundeven (F := Ideal) (kerPy yr))
/-- The window offset of lane k: k - 13. -/
def kerOff (k : Fin 27) : BitVec 32 := IntOp.subi (BitVec.ofNat 32 k.val) 13#32
/-- The cell coordinate at offset k from the centre c. -/
def kerCoord (c : BitVec 32) (k : Fin 27) : BitVec 32 := IntOp.addi c (kerOff k)
/-- The signed distance along one axis from the position p to the cell at offset k from the centre c. -/
def kerDiff (p : Ideal .f32) (c : BitVec 32) (k : Fin 27) : Ideal .f32 :=
  FloatOps.sitofp (F := Ideal) .f32 (kerCoord c k) - p
/-- Its square. -/
def kerDsq (p : Ideal .f32) (c : BitVec 32) (k : Fin 27) : Ideal .f32 := kerDiff p c k * kerDiff p c k
/-- The squared distance along x to window column b. -/
def kerDx2 (xr : Ideal .f32) (b : Fin 27) : Ideal .f32 := kerDsq (kerPx xr) (kerCx xr) b
/-- The squared distance along y to window row a. -/
def kerDy2 (yr : Ideal .f32) (a : Fin 27) : Ideal .f32 := kerDsq (kerPy yr) (kerCy yr) a
/-- The squared spread. -/
def kerSigma2 (sc : Ideal .f32) : Ideal .f32 := kerSigma sc * kerSigma sc
/-- The squared distance to the window cell (a, b): the row part plus the column part. -/
def kerD2 (xr yr : Ideal .f32) (a b : Fin 27) : Ideal .f32 := kerDy2 yr a + kerDx2 xr b
/-- The cell coordinate at offset k from c lies in [0, hi), as a float. -/
def kerInRange (c hi : BitVec 32) (k : Fin 27) : Ideal .f32 :=
  kerBitF (IntOp.andi (IntOp.cmpi .sge (kerCoord c k) 0#32) (IntOp.cmpi .slt (kerCoord c k) hi))
/-- The cell (a, b) lies in the 300 x 400 image: the row condition times the column condition. -/
def kerInb (xr yr : Ideal .f32) (a b : Fin 27) : Ideal .f32 :=
  kerInRange (kerCy yr) 300#32 a * kerInRange (kerCx xr) 400#32 b
/-- The cell is within two spreads of the point: squared distance at most 4 times the squared spread. -/
def kerNearBit (d2 s2 : Ideal .f32) : BitVec 1 :=
  FloatOps.cmpf (F := Ideal) .ole d2 (Ideal.ofBits .f32 0x40800000#32 * s2)
/-- That condition at the window cell (a, b). -/
def kerMask (xr yr sc : Ideal .f32) (a b : Fin 27) : BitVec 1 := kerNearBit (kerD2 xr yr a b) (kerSigma2 sc)
/-- The cell is the one nearest the point: both squared axis distances are below 1/4. -/
def kerNearestBit (dy2 dx2 : Ideal .f32) : BitVec 1 :=
  FloatOps.cmpf (F := Ideal) .ogt
    (kerBitF (FloatOps.cmpf (F := Ideal) .olt dy2 (Ideal.ofBits .f32 0x3E800000#32))
      * kerBitF (FloatOps.cmpf (F := Ideal) .olt dx2 (Ideal.ofBits .f32 0x3E800000#32)))
    (Ideal.ofBits .f32 0x3F000000#32)
/-- One squaring. -/
def kerSq (t : Ideal .f32) : Ideal .f32 := t * t
/-- The bell's stand-in: (1 + ((-1/2) d2 / s2) / 8) squared three times. -/
def kerBell (d2 s2 : Ideal .f32) : Ideal .f32 :=
  kerSq (kerSq (kerSq (Ideal.ofBits .f32 0x3F800000#32
    + Ideal.div (Ideal.div (Ideal.ofBits .f32 0xBF000000#32 * d2) s2) (Ideal.ofBits .f32 0x41000000#32))))
/-- The weight of a cell: 1 at the nearest cell, the bell elsewhere. -/
def kerG (dy2 dx2 d2 s2 : Ideal .f32) : Ideal .f32 :=
  Scalar.select (kerNearestBit dy2 dx2) (Ideal.ofBits .f32 0x3F800000#32) (kerBell d2 s2)
/-- The stored number from the eight numbers the last stage reads: the within-reach condition times the
    in-image condition times the point-counts condition times the value times the weight. -/
def kerOut (val valid dx2 dy2 s2 d2 inb : Ideal .f32) (near : BitVec 1) : Ideal .f32 :=
  (((kerBitF near * inb) * valid) * val) * kerG dy2 dx2 d2 s2

/-- THE STORED NUMBER at window cell (a, b) of a field point with loaded value v, relative coordinates
    xr, yr and scale sc. -/
def kerAt (v xr yr sc : Ideal .f32) (a b : Fin 27) : Ideal .f32 :=
  kerOut (kerVal v) (kerValid v sc) (kerDx2 xr b) (kerDy2 yr a) (kerSigma2 sc) (kerD2 xr yr a b)
    (kerInb xr yr a b) (kerMask xr yr sc a b)

/-! ## Each stage of the body read at an index -/

/-- A bitwise and of two integer vectors at an index. -/
theorem andi_at {s : Shape} {n : Nat} (x y : IVec s n) (i : s.Idx) : andi x y i = IntOp.andi (x i) (y i) := rfl
/-- An integer comparison at an index. -/
theorem cmpi_at {s : Shape} {n : Nat} (p : CmpIPredicate) (x y : IVec s n) (i : s.Idx) :
    cmpi p x y i = IntOp.cmpi p (x i) (y i) := rfl
/-- An integer sum at an index. -/
theorem addi_at {s : Shape} {n : Nat} (x y : IVec s n) (i : s.Idx) : addi x y i = IntOp.addi (x i) (y i) := rfl
/-- An integer difference at an index. -/
theorem subi_at {s : Shape} {n : Nat} (x y : IVec s n) (i : s.Idx) : subi x y i = IntOp.subi (x i) (y i) := rfl

theorem pay2_at (v0 : Vec Ideal S1x1x8x50 .f32) (r : Fin 8) (w : Fin 50) :
    k0_pay2 (F := Ideal) v0 (ix2 r w) = v0 (ix4 (0 : Fin 1) (0 : Fin 1) r w) := by
  unfold k0_pay2
  exact cast_slab v0 _ r w

theorem pay3_at (v6 : Vec Ideal S1x1x8x50 .f32) (r : Fin 8) (w : Fin 50) :
    k0_pay3 (F := Ideal) v6 (ix2 r w) = v6 (ix4 (0 : Fin 1) (0 : Fin 1) r w) := by
  unfold k0_pay3
  exact cast_slab v6 _ r w

theorem pay4_at (v2 : Vec Ideal S1x1x8x50 .f32) (r : Fin 8) (w : Fin 50) :
    k0_pay4 (F := Ideal) v2 (ix2 r w) = kerPx (v2 (ix4 (0 : Fin 1) (0 : Fin 1) r w)) := by
  unfold k0_pay4
  simp only [mulf_apply, broadcast_apply, cast_slab]
  rfl

theorem pay5_at (v4 : Vec Ideal S1x1x8x50 .f32) (r : Fin 8) (w : Fin 50) :
    k0_pay5 (F := Ideal) v4 (ix2 r w) = kerPy (v4 (ix4 (0 : Fin 1) (0 : Fin 1) r w)) := by
  unfold k0_pay5
  simp only [mulf_apply, broadcast_apply, cast_slab]
  rfl

theorem pay6_at (v6 : Vec Ideal S1x1x8x50 .f32) (r : Fin 8) (w : Fin 50) :
    k0_pay6 (F := Ideal) v6 (ix2 r w) = kerSigma (v6 (ix4 (0 : Fin 1) (0 : Fin 1) r w)) := by
  unfold k0_pay6
  simp only [maximumf_apply, mulf_apply, broadcast_apply, pay3_at]
  rfl

theorem pay7_at (v0 : Vec Ideal S1x1x8x50 .f32) (r : Fin 8) (w : Fin 50) :
    k0_pay7 (F := Ideal) v0 (ix2 r w) = kerVal (v0 (ix4 (0 : Fin 1) (0 : Fin 1) r w)) := by
  unfold k0_pay7
  simp only [mulf_apply, broadcast_apply, pay2_at]
  rfl

theorem pay8_at (v0 v6 : Vec Ideal S1x1x8x50 .f32) (r : Fin 8) (w : Fin 50) :
    k0_pay8 (F := Ideal) v0 v6 (ix2 r w)
      = kerValid (v0 (ix4 (0 : Fin 1) (0 : Fin 1) r w)) (v6 (ix4 (0 : Fin 1) (0 : Fin 1) r w)) := by
  unfold k0_pay8
  simp only [sitofp_apply, extui_apply, andi_at, cmpf_apply, mulf_apply, broadcast_apply, pay2_at, pay3_at]
  rfl

theorem pay9_at (v2 : Vec Ideal S1x1x8x50 .f32) (r : Fin 8) (w : Fin 50) :
    k0_pay9 (F := Ideal) v2 (ix2 r w) = kerCx (v2 (ix4 (0 : Fin 1) (0 : Fin 1) r w)) := by
  show FloatOps.fptosi (F := Ideal) 32 (FloatOps.roundeven (F := Ideal) (k0_pay4 (F := Ideal) v2 (ix2 r w))) = _
  rw [pay4_at]
  rfl

theorem pay10_at (v4 : Vec Ideal S1x1x8x50 .f32) (r : Fin 8) (w : Fin 50) :
    k0_pay10 (F := Ideal) v4 (ix2 r w) = kerCy (v4 (ix4 (0 : Fin 1) (0 : Fin 1) r w)) := by
  show FloatOps.fptosi (F := Ideal) 32 (FloatOps.roundeven (F := Ideal) (k0_pay5 (F := Ideal) v4 (ix2 r w))) = _
  rw [pay5_at]
  rfl

theorem pay11_at (k : Fin 27) : k0_pay11 (ix1 k) = kerOff k := by
  unfold k0_pay11
  show IntOp.subi (shapeCast S27 (iota .tc S1x27 32 [1] iota_S1x27_d1_w32) shapeCasts_S1x27_S27 (ix1 k)) 13#32 = _
  rw [lane_counter]
  rfl

theorem pay12_at (v30 : IVec S8x50 32) (r : Fin 8) (w : Fin 50) (k : Fin 27) :
    k0_pay12 v30 (ix3 r w k) = kerCoord (v30 (ix2 r w)) k := by
  unfold k0_pay12
  show IntOp.addi
      (broadcastTo S8x50x27 (shapeCast S8x50x1 v30 shapeCasts_S8x50_S8x50x1) broadcasts_S8x50x1_S8x50x27 (ix3 r w k))
      (broadcastTo S8x50x27 (shapeCast S1x1x27 k0_pay11 shapeCasts_S27_S1x1x27) broadcasts_S1x1x27_S8x50x27 (ix3 r w k)) = _
  rw [spread_point3, spread_offset, pay11_at]
  rfl

theorem pay13_at (v32 : IVec S8x50 32) (r : Fin 8) (w : Fin 50) (k : Fin 27) :
    k0_pay13 v32 (ix3 r w k) = kerCoord (v32 (ix2 r w)) k := by
  unfold k0_pay13
  show IntOp.addi
      (broadcastTo S8x50x27 (shapeCast S8x50x1 v32 shapeCasts_S8x50_S8x50x1) broadcasts_S8x50x1_S8x50x27 (ix3 r w k))
      (broadcastTo S8x50x27 (shapeCast S1x1x27 k0_pay11 shapeCasts_S27_S1x1x27) broadcasts_S1x1x27_S8x50x27 (ix3 r w k)) = _
  rw [spread_point3, spread_offset, pay11_at]
  rfl

theorem pay14_at (v9 : FVec Ideal S8x50 .f32) (v30 : IVec S8x50 32) (r : Fin 8) (w : Fin 50) (k : Fin 27) :
    k0_pay14 (F := Ideal) v9 v30 (ix3 r w k) = kerDsq (v9 (ix2 r w)) (v30 (ix2 r w)) k := by
  unfold k0_pay14
  simp only [mulf_apply, subf_apply, sitofp_apply, pay12_at, spread_point3]
  rfl

theorem pay15_at (v11 : FVec Ideal S8x50 .f32) (v32 : IVec S8x50 32) (r : Fin 8) (w : Fin 50) (k : Fin 27) :
    k0_pay15 (F := Ideal) v11 v32 (ix3 r w k) = kerDsq (v11 (ix2 r w)) (v32 (ix2 r w)) k := by
  unfold k0_pay15
  simp only [mulf_apply, subf_apply, sitofp_apply, pay13_at, spread_point3]
  rfl

theorem pay16_at (v17 : FVec Ideal S8x50 .f32) (r : Fin 8) (w : Fin 50) :
    k0_pay16 (F := Ideal) v17 (ix2 r w) = v17 (ix2 r w) * v17 (ix2 r w) := rfl

theorem pay17_at (v9 v11 : FVec Ideal S8x50 .f32) (v30 v32 : IVec S8x50 32) (r : Fin 8) (w : Fin 50) (a b : Fin 27) :
    k0_pay17 (F := Ideal) v9 v11 v30 v32 (ix4 r w a b)
      = kerDsq (v11 (ix2 r w)) (v32 (ix2 r w)) a + kerDsq (v9 (ix2 r w)) (v30 (ix2 r w)) b := by
  unfold k0_pay17
  simp only [addf_apply, spread_row, spread_col, pay14_at, pay15_at]

theorem pay18_at (v30 v32 : IVec S8x50 32) (r : Fin 8) (w : Fin 50) (a b : Fin 27) :
    k0_pay18 (F := Ideal) v30 v32 (ix4 r w a b)
      = kerInRange (v32 (ix2 r w)) 300#32 a * kerInRange (v30 (ix2 r w)) 400#32 b := by
  unfold k0_pay18
  simp only [mulf_apply, spread_row, spread_col, sitofp_apply, extui_apply]
  show FloatOps.sitofp (F := Ideal) .f32 (BitVec.setWidth 32 (IntOp.andi
        (IntOp.cmpi .sge (k0_pay13 v32 (ix3 r w a)) 0#32) (IntOp.cmpi .slt (k0_pay13 v32 (ix3 r w a)) 300#32)))
      * FloatOps.sitofp (F := Ideal) .f32 (BitVec.setWidth 32 (IntOp.andi
        (IntOp.cmpi .sge (k0_pay12 v30 (ix3 r w b)) 0#32) (IntOp.cmpi .slt (k0_pay12 v30 (ix3 r w b)) 400#32))) = _
  rw [pay13_at, pay12_at]
  rfl

theorem pay19_at (v9 v11 v17 : FVec Ideal S8x50 .f32) (v30 v32 : IVec S8x50 32) (r : Fin 8) (w : Fin 50) (a b : Fin 27) :
    k0_pay19 (F := Ideal) v9 v11 v17 v30 v32 (ix4 r w a b)
      = kerNearBit (kerDsq (v11 (ix2 r w)) (v32 (ix2 r w)) a + kerDsq (v9 (ix2 r w)) (v30 (ix2 r w)) b)
          (v17 (ix2 r w) * v17 (ix2 r w)) := by
  unfold k0_pay19
  simp only [cmpf_apply, spread_point, mulf_apply, broadcast_apply, pay16_at, pay17_at]
  rfl

theorem pay1_at (v19 v28 : FVec Ideal S8x50 .f32) (v51 v56 : FVec Ideal S8x50x27 .f32) (v57 : FVec Ideal S8x50 .f32)
    (v78 v83 : FVec Ideal S8x50x27x27 .f32) (v86 : IVec S8x50x27x27 1) (r : Fin 8) (w : Fin 50) (a b : Fin 27) :
    k0_pay1 (F := Ideal) v19 v28 v51 v56 v57 v78 v83 v86 (ix5 (0 : Fin 1) r w a b)
      = kerOut (v19 (ix2 r w)) (v28 (ix2 r w)) (v51 (ix3 r w b)) (v56 (ix3 r w a)) (v57 (ix2 r w))
          (v78 (ix4 r w a b)) (v83 (ix4 r w a b)) (v86 (ix4 r w a b)) := by
  unfold k0_pay1
  simp only [cast_out, mulf_apply, addf_apply, divf_apply, select_apply, cmpf_apply, sitofp_apply, extui_apply,
    broadcast_apply, spread_point, spread_row, spread_col]
  rfl

/-! ## The stored value at an index -/

/-- THE READING: the stored element at (0, r, w, a, b) is kerAt of the four loaded numbers at
    (0, 0, r, w) and of the window cell (a, b). -/
theorem payOf_at (v0 v2 v4 v6 : Vec Ideal S1x1x8x50 .f32) (r : Fin 8) (w : Fin 50) (a b : Fin 27) :
    payOf v0 v2 v4 v6 (ix5 (0 : Fin 1) r w a b)
      = kerAt (v0 (ix4 (0 : Fin 1) (0 : Fin 1) r w)) (v2 (ix4 (0 : Fin 1) (0 : Fin 1) r w))
          (v4 (ix4 (0 : Fin 1) (0 : Fin 1) r w)) (v6 (ix4 (0 : Fin 1) (0 : Fin 1) r w)) a b := by
  unfold payOf
  rw [pay1_at, pay7_at, pay8_at, pay14_at, pay15_at, pay16_at, pay17_at, pay18_at, pay19_at,
    pay4_at, pay5_at, pay6_at, pay9_at, pay10_at]
  rfl

end Cert.KernelIdeal.KerContrib

end
-- ==== Proof.RefContrib.lean ====
/- The reference's contribution array, read at an index.

   The reference computes, for every field point (f, h, w) and every window offset (a, b) — a the window ROW (the y offset, axis 3 of
   the five-dimensional array), b the window COLUMN (the x offset, axis 4) — one number from the four numbers v, xr, yr, sc the
   argument array holds at channels 0, 1, 2, 4 of that point. `refAt` is that number as a scalar expression: the literal
   composition of the program's scalar operations, in program order, nothing simplified. `val_main_v110_at` says the stage the
   program scatters is `refAt` at every index.

   The proof is bookkeeping: each layout operation (slice, reshape, broadcast) reads its operand at an index computed from the
   literal shapes, and the index equations below identify those computed indices with coordinate tuples; every other operation is
   pointwise. One small lemma per sub-stage, chained. -/
import proofs.«140136_j738734375140_2_alg».proof.Proof.Gen.ReferenceIdeal.Read
import Idealize.ShloMosaic.Lib.ValueIdx
import Idealize.ShloMosaic.Lib.Pipeline.Value

noncomputable section

namespace Cert.ReferenceIdeal.RefContrib

open Cert.ReferenceIdeal Cert.ReferenceIdeal.Read Idealize.ShloMosaic Idealize.ShloMosaic.ValueIdx

/-! ## The scalar expression

Float literals are the words the program has; the one-bit conditions stay `BitVec 1` values, the integers `BitVec 32`. -/

/-- px = xr * 8. -/
def refPx (xr : Ideal .f32) : Ideal .f32 := xr * Ideal.ofBits .f32 0x41000000#32
/-- py = yr * 8. -/
def refPy (yr : Ideal .f32) : Ideal .f32 := yr * Ideal.ofBits .f32 0x41000000#32
/-- sigma = max 1 ((0.5 * sc) * 8). -/
def refSigma (sc : Ideal .f32) : Ideal .f32 :=
  max (Ideal.ofBits .f32 0x3F800000#32) ((Ideal.ofBits .f32 0x3F000000#32 * sc) * Ideal.ofBits .f32 0x41000000#32)
/-- sigma2 = sigma * sigma. -/
def refSigma2 (sc : Ideal .f32) : Ideal .f32 := refSigma sc * refSigma sc
/-- The squared radius 4 * sigma2. -/
def refRad (sc : Ideal .f32) : Ideal .f32 := Ideal.ofBits .f32 0x40800000#32 * refSigma2 sc
/-- value = (v / 16) * 1. -/
def refValue (v : Ideal .f32) : Ideal .f32 :=
  Ideal.div v (Ideal.ofBits .f32 0x41800000#32) * Ideal.ofBits .f32 0x3F800000#32
/-- The point is kept: v >= 0.1 (the float nearest 0.1) and sc * 8 >= 0. -/
def refKeep (v sc : Ideal .f32) : BitVec 1 :=
  IntOp.andi (Ideal.cmp .oge v (Ideal.ofBits .f32 0x3DCCCCCD#32))
    (Ideal.cmp .oge (sc * Ideal.ofBits .f32 0x41000000#32) (Ideal.ofBits .f32 0x00000000#32))
/-- cx = int (roundeven px). -/
def refCx (xr : Ideal .f32) : BitVec 32 := Ideal.fptosi 32 (Ideal.liftRound Ideal.roundHalfEven (refPx xr))
/-- cy = int (roundeven py). -/
def refCy (yr : Ideal .f32) : BitVec 32 := Ideal.fptosi 32 (Ideal.liftRound Ideal.roundHalfEven (refPy yr))
/-- The offset o(k) = -13 + k, as a 32-bit word. -/
def refOff (k : Fin 27) : BitVec 32 := IntOp.addi 4294967283#32 (BitVec.ofNat 32 k.val)
/-- xx(b) = cx + o(b). -/
def refXX (xr : Ideal .f32) (b : Fin 27) : BitVec 32 := IntOp.addi (refCx xr) (refOff b)
/-- yy(a) = cy + o(a). -/
def refYY (yr : Ideal .f32) (a : Fin 27) : BitVec 32 := IntOp.addi (refCy yr) (refOff a)
/-- float xx(b) - px. -/
def refDx (xr : Ideal .f32) (b : Fin 27) : Ideal .f32 := (((refXX xr b).toInt : ℝ) : EReal) - refPx xr
/-- dx2 = (float xx(b) - px)^2. -/
def refDx2 (xr : Ideal .f32) (b : Fin 27) : Ideal .f32 := refDx xr b * refDx xr b
/-- float yy(a) - py. -/
def refDy (yr : Ideal .f32) (a : Fin 27) : Ideal .f32 := (((refYY yr a).toInt : ℝ) : EReal) - refPy yr
/-- dy2 = (float yy(a) - py)^2. -/
def refDy2 (yr : Ideal .f32) (a : Fin 27) : Ideal .f32 := refDy yr a * refDy yr a
/-- d2 = dy2 + dx2. -/
def refD2 (xr yr : Ideal .f32) (a b : Fin 27) : Ideal .f32 := refDy2 yr a + refDx2 xr b
/-- 0 <= yy(a) < 300. -/
def refInY (yr : Ideal .f32) (a : Fin 27) : BitVec 1 :=
  IntOp.andi (IntOp.cmpi .sge (refYY yr a) 0#32) (IntOp.cmpi .slt (refYY yr a) 300#32)
/-- 0 <= xx(b) < 400. -/
def refInX (xr : Ideal .f32) (b : Fin 27) : BitVec 1 :=
  IntOp.andi (IntOp.cmpi .sge (refXX xr b) 0#32) (IntOp.cmpi .slt (refXX xr b) 400#32)
/-- The mask: ((d2 <= 4 * sigma2) and (in-range y and in-range x)) and kept. -/
def refMask (v xr yr sc : Ideal .f32) (a b : Fin 27) : BitVec 1 :=
  IntOp.andi
    (IntOp.andi (Ideal.cmp .ole (refD2 xr yr a b) (refRad sc)) (IntOp.andi (refInY yr a) (refInX xr b)))
    (refKeep v sc)
/-- nearest = (dy2 < 0.25) and (dx2 < 0.25). -/
def refNear (xr yr : Ideal .f32) (a b : Fin 27) : BitVec 1 :=
  IntOp.andi (Ideal.cmp .olt (refDy2 yr a) (Ideal.ofBits .f32 0x3E800000#32))
    (Ideal.cmp .olt (refDx2 xr b) (Ideal.ofBits .f32 0x3E800000#32))
/-- t = 1 + ((-0.5 * d2) / sigma2) / 8. -/
def refT (xr yr sc : Ideal .f32) (a b : Fin 27) : Ideal .f32 :=
  Ideal.ofBits .f32 0x3F800000#32 +
    Ideal.div (Ideal.div (Ideal.ofBits .f32 0xBF000000#32 * refD2 xr yr a b) (refSigma2 sc)) (Ideal.ofBits .f32 0x41000000#32)
/-- t^2. -/
def refT2 (xr yr sc : Ideal .f32) (a b : Fin 27) : Ideal .f32 := refT xr yr sc a b * refT xr yr sc a b
/-- t^4. -/
def refT4 (xr yr sc : Ideal .f32) (a b : Fin 27) : Ideal .f32 := refT2 xr yr sc a b * refT2 xr yr sc a b
/-- t^8. -/
def refT8 (xr yr sc : Ideal .f32) (a b : Fin 27) : Ideal .f32 := refT4 xr yr sc a b * refT4 xr yr sc a b
/-- g = 1 if nearest else t^8. -/
def refG (xr yr sc : Ideal .f32) (a b : Fin 27) : Ideal .f32 :=
  Scalar.select (refNear xr yr a b) (Ideal.ofBits .f32 0x3F800000#32) (refT8 xr yr sc a b)
/-- The contribution: value * g under the mask, 0 outside it. -/
def refAt (v xr yr sc : Ideal .f32) (a b : Fin 27) : Ideal .f32 :=
  Scalar.select (refMask v xr yr sc a b) (refValue v * refG xr yr sc a b) (Ideal.ofBits .f32 0x00000000#32)

/-! ## Index equations: the layout operations' computed indices at coordinate tuples -/

section Indices
variable (f : Fin 17) (h : Fin 38) (w : Fin 50) (a b : Fin 27)

/-- A reshape [17,1,38,50] → [17,38,50] reads (f, h, w) at (f, 0, h, w): the row-major position ((f*38+h)*50+w) splits back. -/
theorem idx_v1 : idx_main_v1 (ix3 f h w) = ix4 f (0 : Fin 1) h w := by
  have hf := f.isLt; have hh := h.isLt; have hw := w.isLt
  funext d
  match d with
  | ⟨0, _⟩ => exact Fin.ext (by show ((f.val * 38 + h.val) * 50 + w.val) / 1900 = f.val; omega)
  | ⟨1, _⟩ => rfl
  | ⟨2, _⟩ => exact Fin.ext (by show ((f.val * 38 + h.val) * 50 + w.val) / 50 % 38 = h.val; omega)
  | ⟨3, _⟩ => exact Fin.ext (by show ((f.val * 38 + h.val) * 50 + w.val) % 50 = w.val; omega)
theorem idx_v3 : idx_main_v3 (ix3 f h w) = ix4 f (0 : Fin 1) h w := idx_v1 f h w
theorem idx_v7 : idx_main_v7 (ix3 f h w) = ix4 f (0 : Fin 1) h w := idx_v1 f h w
theorem idx_v11 : idx_main_v11 (ix3 f h w) = ix4 f (0 : Fin 1) h w := idx_v1 f h w

/-- The four channel slices: channel 0, 1, 2, 4. -/
theorem idx_v0 : idx_main_v0 (ix4 f (0 : Fin 1) h w) = ix4 f (0 : Fin 5) h w := by
  funext d; match d with | ⟨0, _⟩ => rfl | ⟨1, _⟩ => rfl | ⟨2, _⟩ => rfl | ⟨3, _⟩ => rfl
theorem idx_v2 : idx_main_v2 (ix4 f (0 : Fin 1) h w) = ix4 f (1 : Fin 5) h w := by
  funext d; match d with | ⟨0, _⟩ => rfl | ⟨1, _⟩ => rfl | ⟨2, _⟩ => rfl | ⟨3, _⟩ => rfl
theorem idx_v6 : idx_main_v6 (ix4 f (0 : Fin 1) h w) = ix4 f (2 : Fin 5) h w := by
  funext d; match d with | ⟨0, _⟩ => rfl | ⟨1, _⟩ => rfl | ⟨2, _⟩ => rfl | ⟨3, _⟩ => rfl
theorem idx_v10 : idx_main_v10 (ix4 f (0 : Fin 1) h w) = ix4 f (4 : Fin 5) h w := by
  funext d; match d with | ⟨0, _⟩ => rfl | ⟨1, _⟩ => rfl | ⟨2, _⟩ => rfl | ⟨3, _⟩ => rfl

/-- [17,38,50] → [17,38,50,1]. -/
theorem idx_v36 (z : Fin 1) : idx_main_v36 (ix4 f h w z) = ix3 f h w := by
  funext d; match d with | ⟨0, _⟩ => rfl | ⟨1, _⟩ => rfl | ⟨2, _⟩ => rfl
theorem idx_v41 (z : Fin 1) : idx_main_v41 (ix4 f h w z) = ix3 f h w := idx_v36 f h w z
theorem idx_v47 (z : Fin 1) : idx_main_v47 (ix4 f h w z) = ix3 f h w := idx_v36 f h w z
theorem idx_v52 (z : Fin 1) : idx_main_v52 (ix4 f h w z) = ix3 f h w := idx_v36 f h w z

/-- [27] → [1,1,1,27]. -/
theorem idx_v37 (z0 z1 z2 : Fin 1) : idx_main_v37 (ix4 z0 z1 z2 b) = ix1 b := by
  funext d; match d with | ⟨0, _⟩ => rfl
theorem idx_v42 (z0 z1 z2 : Fin 1) : idx_main_v42 (ix4 z0 z1 z2 b) = ix1 b := idx_v37 b z0 z1 z2

/-- [17,38,50,1] → [17,38,50,27]. -/
theorem idx_v38 : idx_main_v38 (ix4 f h w b) = ix4 f h w (0 : Fin 1) := by
  funext d; match d with | ⟨0, _⟩ => rfl | ⟨1, _⟩ => rfl | ⟨2, _⟩ => rfl | ⟨3, _⟩ => rfl
theorem idx_v43 : idx_main_v43 (ix4 f h w b) = ix4 f h w (0 : Fin 1) := idx_v38 f h w b
theorem idx_v48 : idx_main_v48 (ix4 f h w b) = ix4 f h w (0 : Fin 1) := idx_v38 f h w b
theorem idx_v53 : idx_main_v53 (ix4 f h w b) = ix4 f h w (0 : Fin 1) := idx_v38 f h w b

/-- [1,1,1,27] → [17,38,50,27]. -/
theorem idx_v39 : idx_main_v39 (ix4 f h w b) = ix4 (0 : Fin 1) (0 : Fin 1) (0 : Fin 1) b := by
  funext d; match d with | ⟨0, _⟩ => rfl | ⟨1, _⟩ => rfl | ⟨2, _⟩ => rfl | ⟨3, _⟩ => rfl
theorem idx_v44 : idx_main_v44 (ix4 f h w b) = ix4 (0 : Fin 1) (0 : Fin 1) (0 : Fin 1) b := idx_v39 f h w b

/-- [17,38,50,27] → [17,38,50,27,1]: the window row. -/
theorem idx_v56 (z : Fin 1) : idx_main_v56 (ix5 f h w a z) = ix4 f h w a := by
  funext d; match d with | ⟨0, _⟩ => rfl | ⟨1, _⟩ => rfl | ⟨2, _⟩ => rfl | ⟨3, _⟩ => rfl
theorem idx_v70 (z : Fin 1) : idx_main_v70 (ix5 f h w a z) = ix4 f h w a := idx_v56 f h w a z
theorem idx_v86 (z : Fin 1) : idx_main_v86 (ix5 f h w a z) = ix4 f h w a := idx_v56 f h w a z

/-- [17,38,50,27] → [17,38,50,1,27]: the window column. -/
theorem idx_v57 (z : Fin 1) : idx_main_v57 (ix5 f h w z b) = ix4 f h w b := by
  funext d; match d with | ⟨0, _⟩ => rfl | ⟨1, _⟩ => rfl | ⟨2, _⟩ => rfl | ⟨3, _⟩ => rfl
theorem idx_v76 (z : Fin 1) : idx_main_v76 (ix5 f h w z b) = ix4 f h w b := idx_v57 f h w b z
theorem idx_v89 (z : Fin 1) : idx_main_v89 (ix5 f h w z b) = ix4 f h w b := idx_v57 f h w b z

/-- [17,38,50,27,1] → [17,38,50,27,27]. -/
theorem idx_v58 : idx_main_v58 (ix5 f h w a b) = ix5 f h w a (0 : Fin 1) := by
  funext d; match d with | ⟨0, _⟩ => rfl | ⟨1, _⟩ => rfl | ⟨2, _⟩ => rfl | ⟨3, _⟩ => rfl | ⟨4, _⟩ => rfl
theorem idx_v77 : idx_main_v77 (ix5 f h w a b) = ix5 f h w a (0 : Fin 1) := idx_v58 f h w a b
theorem idx_v92 : idx_main_v92 (ix5 f h w a b) = ix5 f h w a (0 : Fin 1) := idx_v58 f h w a b

/-- [17,38,50,1,27] → [17,38,50,27,27]. -/
theorem idx_v59 : idx_main_v59 (ix5 f h w a b) = ix5 f h w (0 : Fin 1) b := by
  funext d; match d with | ⟨0, _⟩ => rfl | ⟨1, _⟩ => rfl | ⟨2, _⟩ => rfl | ⟨3, _⟩ => rfl | ⟨4, _⟩ => rfl
theorem idx_v78 : idx_main_v78 (ix5 f h w a b) = ix5 f h w (0 : Fin 1) b := idx_v59 f h w a b
theorem idx_v93 : idx_main_v93 (ix5 f h w a b) = ix5 f h w (0 : Fin 1) b := idx_v59 f h w a b

/-- [17,38,50] → [17,38,50,1,1]. -/
theorem idx_v62 (z z' : Fin 1) : idx_main_v62 (ix5 f h w z z') = ix3 f h w := by
  funext d; match d with | ⟨0, _⟩ => rfl | ⟨1, _⟩ => rfl | ⟨2, _⟩ => rfl
theorem idx_v83 (z z' : Fin 1) : idx_main_v83 (ix5 f h w z z') = ix3 f h w := idx_v62 f h w z z'
theorem idx_v107 (z z' : Fin 1) : idx_main_v107 (ix5 f h w z z') = ix3 f h w := idx_v62 f h w z z'

/-- [17,38,50,1,1] → [17,38,50,27,27]. -/
theorem idx_v80 : idx_main_v80 (ix5 f h w a b) = ix5 f h w (0 : Fin 1) (0 : Fin 1) := by
  funext d; match d with | ⟨0, _⟩ => rfl | ⟨1, _⟩ => rfl | ⟨2, _⟩ => rfl | ⟨3, _⟩ => rfl | ⟨4, _⟩ => rfl
theorem idx_v84 : idx_main_v84 (ix5 f h w a b) = ix5 f h w (0 : Fin 1) (0 : Fin 1) := idx_v80 f h w a b
theorem idx_v97 : idx_main_v97 (ix5 f h w a b) = ix5 f h w (0 : Fin 1) (0 : Fin 1) := idx_v80 f h w a b
theorem idx_v108 : idx_main_v108 (ix5 f h w a b) = ix5 f h w (0 : Fin 1) (0 : Fin 1) := idx_v80 f h w a b

end Indices

/-! ## The broadcast literals at an index -/

section Literals

theorem v4_at (i : S17x38x50.Idx) : val_main_v4 (F := Ideal) i = Ideal.ofBits .f32 0x41000000#32 := by
  rw [val_main_v4_apply]; rfl
theorem v8_at (i : S17x38x50.Idx) : val_main_v8 (F := Ideal) i = Ideal.ofBits .f32 0x41000000#32 := by
  rw [val_main_v8_apply]; rfl
theorem v12_at (i : S17x38x50.Idx) : val_main_v12 (F := Ideal) i = Ideal.ofBits .f32 0x3F000000#32 := by
  rw [val_main_v12_apply]; rfl
theorem v14_at (i : S17x38x50.Idx) : val_main_v14 (F := Ideal) i = Ideal.ofBits .f32 0x41000000#32 := by
  rw [val_main_v14_apply]; rfl
theorem v16_at (i : S17x38x50.Idx) : val_main_v16 (F := Ideal) i = Ideal.ofBits .f32 0x3F800000#32 := by
  rw [val_main_v16_apply]; rfl
theorem v18_at (i : S17x38x50.Idx) : val_main_v18 (F := Ideal) i = Ideal.ofBits .f32 0x41800000#32 := by
  rw [val_main_v18_apply]; rfl
theorem v20_at (i : S17x38x50.Idx) : val_main_v20 (F := Ideal) i = Ideal.ofBits .f32 0x3F800000#32 := by
  rw [val_main_v20_apply]; rfl
theorem v22_at (i : S17x38x50.Idx) : val_main_v22 (F := Ideal) i = Ideal.ofBits .f32 0x3DCCCCCD#32 := by
  rw [val_main_v22_apply]; rfl
theorem v24_at (i : S17x38x50.Idx) : val_main_v24 (F := Ideal) i = Ideal.ofBits .f32 0x41000000#32 := by
  rw [val_main_v24_apply]; rfl
theorem v26_at (i : S17x38x50.Idx) : val_main_v26 (F := Ideal) i = Ideal.ofBits .f32 0x00000000#32 := by
  rw [val_main_v26_apply]; rfl
theorem v34_at (i : S27.Idx) : val_main_v34 (F := Ideal) i = 4294967283#32 := by
  rw [val_main_v34_apply]; rfl
theorem v63_at (i : S17x38x50x1x1.Idx) : val_main_v63 (F := Ideal) i = Ideal.ofBits .f32 0x40800000#32 := by
  rw [val_main_v63_apply]; rfl
theorem v65_at (i : S17x38x50x27.Idx) : val_main_v65 (F := Ideal) i = 0#32 := by
  rw [val_main_v65_apply]; rfl
theorem v67_at (i : S17x38x50x27.Idx) : val_main_v67 (F := Ideal) i = 300#32 := by
  rw [val_main_v67_apply]; rfl
theorem v71_at (i : S17x38x50x27.Idx) : val_main_v71 (F := Ideal) i = 0#32 := by
  rw [val_main_v71_apply]; rfl
theorem v73_at (i : S17x38x50x27.Idx) : val_main_v73 (F := Ideal) i = 400#32 := by
  rw [val_main_v73_apply]; rfl
theorem v87_at (i : S17x38x50x27x1.Idx) : val_main_v87 (F := Ideal) i = Ideal.ofBits .f32 0x3E800000#32 := by
  rw [val_main_v87_apply]; rfl
theorem v90_at (i : S17x38x50x1x27.Idx) : val_main_v90 (F := Ideal) i = Ideal.ofBits .f32 0x3E800000#32 := by
  rw [val_main_v90_apply]; rfl
theorem v95_at (i : S17x38x50x27x27.Idx) : val_main_v95 (F := Ideal) i = Ideal.ofBits .f32 0xBF000000#32 := by
  rw [val_main_v95_apply]; rfl
theorem v99_at (i : S17x38x50x27x27.Idx) : val_main_v99 (F := Ideal) i = Ideal.ofBits .f32 0x41000000#32 := by
  rw [val_main_v99_apply]; rfl
theorem v101_at (i : S17x38x50x27x27.Idx) : val_main_v101 (F := Ideal) i = Ideal.ofBits .f32 0x3F800000#32 := by
  rw [val_main_v101_apply]; rfl
theorem call2_v1_at (i : S17x38x50x27x27.Idx) : val_main_call2_v1 (F := Ideal) i = Ideal.ofBits .f32 0x3F800000#32 := by
  rw [val_main_call2_v1_apply]; rfl
theorem call3_v1_at (i : S17x38x50x27x27.Idx) : val_main_call3_v1 (F := Ideal) i = Ideal.ofBits .f32 0x00000000#32 := by
  rw [val_main_call3_v1_apply]; rfl

end Literals

/-! ## The stages at an index, in program order -/

section Stages
variable (x : (⟨S17x5x38x50, .f32⟩ : BufTy).Contents (Elt Ideal))
variable (f : Fin 17) (h : Fin 38) (w : Fin 50) (a b : Fin 27)

/-- The four numbers of a field point: channels 0, 1, 2, 4. -/
theorem v1_at : val_main_v1 (F := Ideal) x (ix3 f h w) = x (ix4 f (0 : Fin 5) h w) := by
  rw [val_main_v1_apply, idx_v1, val_main_v0_apply, idx_v0]
theorem v3_at : val_main_v3 (F := Ideal) x (ix3 f h w) = x (ix4 f (1 : Fin 5) h w) := by
  rw [val_main_v3_apply, idx_v3, val_main_v2_apply, idx_v2]
theorem v7_at : val_main_v7 (F := Ideal) x (ix3 f h w) = x (ix4 f (2 : Fin 5) h w) := by
  rw [val_main_v7_apply, idx_v7, val_main_v6_apply, idx_v6]
theorem v11_at : val_main_v11 (F := Ideal) x (ix3 f h w) = x (ix4 f (4 : Fin 5) h w) := by
  rw [val_main_v11_apply, idx_v11, val_main_v10_apply, idx_v10]

/-- px and py. -/
theorem v5_at : val_main_v5 (F := Ideal) x (ix3 f h w) = refPx (x (ix4 f (1 : Fin 5) h w)) := by
  rw [val_main_v5_apply, v3_at, v4_at]; rfl
theorem v9_at : val_main_v9 (F := Ideal) x (ix3 f h w) = refPy (x (ix4 f (2 : Fin 5) h w)) := by
  rw [val_main_v9_apply, v7_at, v8_at]; rfl
/-- sigma. -/
theorem v17_at : val_main_v17 (F := Ideal) x (ix3 f h w) = refSigma (x (ix4 f (4 : Fin 5) h w)) := by
  rw [val_main_v17_apply, v16_at, val_main_v15_apply, val_main_v13_apply, v12_at, v11_at, v14_at]; rfl
/-- value. -/
theorem v21_at : val_main_v21 (F := Ideal) x (ix3 f h w) = refValue (x (ix4 f (0 : Fin 5) h w)) := by
  rw [val_main_v21_apply, val_main_v19_apply, v1_at, v18_at, v20_at]; rfl
/-- The point is kept. -/
theorem v28_at : val_main_v28 (F := Ideal) x (ix3 f h w) = refKeep (x (ix4 f (0 : Fin 5) h w)) (x (ix4 f (4 : Fin 5) h w)) := by
  rw [val_main_v28_apply, val_main_v23_apply, v1_at, v22_at, val_main_v27_apply, val_main_v25_apply, v11_at, v24_at,
    v26_at]; rfl
/-- cx and cy. -/
theorem v30_at : val_main_v30 (F := Ideal) x (ix3 f h w) = refCx (x (ix4 f (1 : Fin 5) h w)) := by
  rw [val_main_v30_apply, val_main_v29_apply, v5_at]; rfl
theorem v32_at : val_main_v32 (F := Ideal) x (ix3 f h w) = refCy (x (ix4 f (2 : Fin 5) h w)) := by
  rw [val_main_v32_apply, val_main_v31_apply, v9_at]; rfl
/-- The offsets. -/
theorem v35_at (k : Fin 27) : val_main_v35 (F := Ideal) (ix1 k) = refOff k := by
  rw [val_main_v35_apply, v34_at, val_main_v33_apply]; rfl
/-- xx and yy. -/
theorem v40_at : val_main_v40 (F := Ideal) x (ix4 f h w b) = refXX (x (ix4 f (1 : Fin 5) h w)) b := by
  rw [val_main_v40_apply, val_main_v38_apply, idx_v38, val_main_v36_apply, idx_v36, v30_at,
    val_main_v39_apply, idx_v39, val_main_v37_apply, idx_v37, v35_at]; rfl
theorem v45_at : val_main_v45 (F := Ideal) x (ix4 f h w a) = refYY (x (ix4 f (2 : Fin 5) h w)) a := by
  rw [val_main_v45_apply, val_main_v43_apply, idx_v43, val_main_v41_apply, idx_v41, v32_at,
    val_main_v44_apply, idx_v44, val_main_v42_apply, idx_v42, v35_at]; rfl
/-- px and py, broadcast along the window. -/
theorem v48_at : val_main_v48 (F := Ideal) x (ix4 f h w b) = refPx (x (ix4 f (1 : Fin 5) h w)) := by
  rw [val_main_v48_apply, idx_v48, val_main_v47_apply, idx_v47, v5_at]
theorem v53_at : val_main_v53 (F := Ideal) x (ix4 f h w a) = refPy (x (ix4 f (2 : Fin 5) h w)) := by
  rw [val_main_v53_apply, idx_v53, val_main_v52_apply, idx_v52, v9_at]
/-- dx2 and dy2. -/
theorem v49_at : val_main_v49 (F := Ideal) x (ix4 f h w b) = refDx (x (ix4 f (1 : Fin 5) h w)) b := by
  rw [val_main_v49_apply, val_main_v46_apply, v40_at, v48_at]; rfl
theorem v50_at : val_main_v50 (F := Ideal) x (ix4 f h w b) = refDx2 (x (ix4 f (1 : Fin 5) h w)) b := by
  rw [val_main_v50_apply, v49_at]; rfl
theorem v54_at : val_main_v54 (F := Ideal) x (ix4 f h w a) = refDy (x (ix4 f (2 : Fin 5) h w)) a := by
  rw [val_main_v54_apply, val_main_v51_apply, v45_at, v53_at]; rfl
theorem v55_at : val_main_v55 (F := Ideal) x (ix4 f h w a) = refDy2 (x (ix4 f (2 : Fin 5) h w)) a := by
  rw [val_main_v55_apply, v54_at]; rfl
/-- d2. -/
theorem v60_at : val_main_v60 (F := Ideal) x (ix5 f h w a b) = refD2 (x (ix4 f (1 : Fin 5) h w)) (x (ix4 f (2 : Fin 5) h w)) a b := by
  rw [val_main_v60_apply, val_main_v58_apply, idx_v58, val_main_v56_apply, idx_v56, v55_at,
    val_main_v59_apply, idx_v59, val_main_v57_apply, idx_v57, v50_at]; rfl
/-- sigma2 and the squared radius. -/
theorem v61_at : val_main_v61 (F := Ideal) x (ix3 f h w) = refSigma2 (x (ix4 f (4 : Fin 5) h w)) := by
  rw [val_main_v61_apply, v17_at]; rfl
theorem v62_at (z z' : Fin 1) : val_main_v62 (F := Ideal) x (ix5 f h w z z') = refSigma2 (x (ix4 f (4 : Fin 5) h w)) := by
  rw [val_main_v62_apply, idx_v62, v61_at]
theorem v64_at (z z' : Fin 1) : val_main_v64 (F := Ideal) x (ix5 f h w z z') = refRad (x (ix4 f (4 : Fin 5) h w)) := by
  rw [val_main_v64_apply, v63_at, v62_at]; rfl
theorem v80_at : val_main_v80 (F := Ideal) x (ix5 f h w a b) = refRad (x (ix4 f (4 : Fin 5) h w)) := by
  rw [val_main_v80_apply, idx_v80, v64_at]
/-- The range conditions. -/
theorem v69_at : val_main_v69 (F := Ideal) x (ix4 f h w a) = refInY (x (ix4 f (2 : Fin 5) h w)) a := by
  rw [val_main_v69_apply, val_main_v66_apply, val_main_v68_apply, v45_at, v65_at, v67_at]; rfl
theorem v75_at : val_main_v75 (F := Ideal) x (ix4 f h w b) = refInX (x (ix4 f (1 : Fin 5) h w)) b := by
  rw [val_main_v75_apply, val_main_v72_apply, val_main_v74_apply, v40_at, v71_at, v73_at]; rfl
theorem v79_at : val_main_v79 (F := Ideal) x (ix5 f h w a b) = IntOp.andi (refInY (x (ix4 f (2 : Fin 5) h w)) a) (refInX (x (ix4 f (1 : Fin 5) h w)) b) := by
  rw [val_main_v79_apply, val_main_v77_apply, idx_v77, val_main_v70_apply, idx_v70, v69_at,
    val_main_v78_apply, idx_v78, val_main_v76_apply, idx_v76, v75_at]
/-- The kept bit, broadcast along the window. -/
theorem v84_at : val_main_v84 (F := Ideal) x (ix5 f h w a b) = refKeep (x (ix4 f (0 : Fin 5) h w)) (x (ix4 f (4 : Fin 5) h w)) := by
  rw [val_main_v84_apply, idx_v84, val_main_v83_apply, idx_v83, v28_at]
/-- The mask. -/
theorem v85_at : val_main_v85 (F := Ideal) x (ix5 f h w a b) = refMask (x (ix4 f (0 : Fin 5) h w)) (x (ix4 f (1 : Fin 5) h w)) (x (ix4 f (2 : Fin 5) h w)) (x (ix4 f (4 : Fin 5) h w)) a b := by
  rw [val_main_v85_apply, val_main_v82_apply, val_main_v81_apply, v60_at, v80_at, v79_at, v84_at]; rfl
/-- nearest. -/
theorem v94_at : val_main_v94 (F := Ideal) x (ix5 f h w a b) = refNear (x (ix4 f (1 : Fin 5) h w)) (x (ix4 f (2 : Fin 5) h w)) a b := by
  rw [val_main_v94_apply, val_main_v92_apply, idx_v92, val_main_v88_apply, val_main_v86_apply, idx_v86, v55_at, v87_at,
    val_main_v93_apply, idx_v93, val_main_v91_apply, val_main_v89_apply, idx_v89, v50_at, v90_at]; rfl
/-- t and its three squarings. -/
theorem v97_at : val_main_v97 (F := Ideal) x (ix5 f h w a b) = refSigma2 (x (ix4 f (4 : Fin 5) h w)) := by
  rw [val_main_v97_apply, idx_v97, v62_at]
theorem v102_at : val_main_v102 (F := Ideal) x (ix5 f h w a b) = refT (x (ix4 f (1 : Fin 5) h w)) (x (ix4 f (2 : Fin 5) h w)) (x (ix4 f (4 : Fin 5) h w)) a b := by
  rw [val_main_v102_apply, v101_at, val_main_v100_apply, val_main_v98_apply, val_main_v96_apply, v95_at, v60_at, v97_at,
    v99_at]; rfl
theorem v105_at : val_main_v105 (F := Ideal) x (ix5 f h w a b) = refT8 (x (ix4 f (1 : Fin 5) h w)) (x (ix4 f (2 : Fin 5) h w)) (x (ix4 f (4 : Fin 5) h w)) a b := by
  rw [val_main_v105_apply, val_main_v104_apply, val_main_v103_apply, v102_at]; rfl
/-- g. -/
theorem v106_at : val_main_v106 (F := Ideal) x (ix5 f h w a b) = refG (x (ix4 f (1 : Fin 5) h w)) (x (ix4 f (2 : Fin 5) h w)) (x (ix4 f (4 : Fin 5) h w)) a b := by
  rw [val_main_v106_apply, v94_at, call2_v1_at, v105_at]; rfl
/-- value, broadcast along the window. -/
theorem v108_at : val_main_v108 (F := Ideal) x (ix5 f h w a b) = refValue (x (ix4 f (0 : Fin 5) h w)) := by
  rw [val_main_v108_apply, idx_v108, val_main_v107_apply, idx_v107, v21_at]

/-- The contribution at an index is `refAt` of the field point's four numbers. -/
theorem val_main_v110_at :
    val_main_v110 (F := Ideal) x (ix5 f h w a b)
      = refAt (x (ix4 f (0 : Fin 5) h w)) (x (ix4 f (1 : Fin 5) h w)) (x (ix4 f (2 : Fin 5) h w)) (x (ix4 f (4 : Fin 5) h w)) a b := by
  rw [val_main_v110_apply, v85_at, val_main_v109_apply, v108_at, v106_at, call3_v1_at]; rfl

end Stages

end Cert.ReferenceIdeal.RefContrib
-- ==== Proof.TailBridge.lean ====
/-
  The host lines after the grid, on both sides.

  After its grid the kernel's program takes rows 0..37 of the grid's output array, recomputes from
  the field array the integer cell index of every (field point, window cell) pair, adds the sliced
  contributions into the flattened image at those indices, reshapes and caps the result at 1. The
  reference program ends with the same lines, in the same order, on the same field array, applied to
  its own contribution array. Here the reference's closing lines are named as ONE function refFinish
  of the image, the field array and ANY contribution array; the reference's result is refFinish of its
  own contributions, and what the kernel's program leaves in its result buffer is refFinish of the
  sliced grid output. Both are compositions of the same named operations: no arithmetic is done.
-/
import proofs.«140136_j738734375140_2_alg».proof.Proof.Gen.KernelIdeal.Launch
import proofs.«140136_j738734375140_2_alg».proof.Proof.Gen.ReferenceIdeal.Read
import Idealize.ShloMosaic.Lib.StableHlo.Run
import Idealize.ShloMosaic.PureOps.Ideal

noncomputable section

namespace Cert.KernelIdeal.TailBridge

open Cert.KernelIdeal Cert.KernelIdeal.Gen Idealize.ShloMosaic Idealize.ShloMosaic.TcCoe Idealize.SL.Sem
  Idealize.ShloMosaic.StableHlo

/-- The reference's closing lines applied to ANY contribution array: flatten the image, add the
    flattened contributions at the cell indices computed from the field array, reshape, cap at 1. -/
def refFinish (a0 : (⟨Cert.ReferenceIdeal.S17x300x400, .f32⟩ : BufTy).Contents (Elt Ideal))
    (a1 : (⟨Cert.ReferenceIdeal.S17x5x38x50, .f32⟩ : BufTy).Contents (Elt Ideal))
    (upd : (⟨Cert.ReferenceIdeal.S17x38x50x27x27, .f32⟩ : BufTy).Contents (Elt Ideal)) :
    (⟨Cert.ReferenceIdeal.S17x300x400, .f32⟩ : BufTy).Contents (Elt Ideal) :=
  minimumf (F := Ideal) (s := Cert.ReferenceIdeal.S17x300x400) (φ := .f32)
    (shapeCast _
      (Host.scatterAdd (F := Ideal) (φ := .f32) Cert.ReferenceIdeal.scatter_S2040000_S23546700x1_S23546700_n_0_0_1
        (Cert.ReferenceIdeal.Read.val_main_v126 (F := Ideal) a0)
        (Cert.ReferenceIdeal.Read.val_main_v134 (F := Ideal) a1)
        (shapeCast _ upd Cert.ReferenceIdeal.Gen.shapeCasts_S17x38x50x27x27_S23546700))
      Cert.ReferenceIdeal.Gen.shapeCasts_S2040000_S17x300x400)
    (Cert.ReferenceIdeal.Read.val_main_v137 (F := Ideal))

/-- The reference's result is its closing lines applied to its own contribution array. -/
theorem ref_result (a0 : (⟨Cert.ReferenceIdeal.S17x300x400, .f32⟩ : BufTy).Contents (Elt Ideal))
    (a1 : (⟨Cert.ReferenceIdeal.S17x5x38x50, .f32⟩ : BufTy).Contents (Elt Ideal)) :
    Cert.ReferenceIdeal.Read.val_main_v138 (F := Ideal) a0 a1
      = refFinish a0 a1 (Cert.ReferenceIdeal.Read.val_main_v110 (F := Ideal) a1) := by
  unfold refFinish Cert.ReferenceIdeal.Read.val_main_v138 Cert.ReferenceIdeal.Read.val_main_v136
    Cert.ReferenceIdeal.Read.val_main_v135 Cert.ReferenceIdeal.Read.val_main_v128
  rfl

set_option maxRecDepth 8192 in
set_option maxHeartbeats 74000000 in
/-- What the kernel's program leaves in its result buffer once the lines after the grid have run, from
    any buffer contents W: the reference's closing lines applied to the image and the field array that
    W holds and to rows 0..37 of the grid's output array that W holds. -/
theorem tail_value (W : Valuation τ sig (Elt Ideal)) :
    StableHlo.after (List.flatten [hostOps1 (F := Ideal), hostOps1_1 (F := Ideal), hostOps1_2 (F := Ideal),
        hostOps1_3 (F := Ideal), hostOps1_4 (F := Ideal), hostOps1_5 (F := Ideal), hostOps1_6 (F := Ideal),
        hostOps1_7 (F := Ideal), hostOps1_8 (F := Ideal)]) W (Proc.devRef .tc main_v55)
      = refFinish (W (Proc.devRef .tc main_arg0)) (W (Proc.devRef .tc main_arg1))
          (extractStridedSlice S17x38x50x27x27 ![0, 0, 0, 0, 0] (W (Proc.devRef .tc main_v1))
            slices_S17x40x50x27x27_S17x38x50x27x27_0_0_0_0_0) := by
  simp only [hostOps1, hostOps1_1, hostOps1_2, hostOps1_3, hostOps1_4, hostOps1_5, hostOps1_6, hostOps1_7, hostOps1_8,
    List.flatten_cons, List.flatten_nil, List.append_nil, List.cons_append, List.nil_append]
  after_results_simp
  rfl

end Cert.KernelIdeal.TailBridge

end
-- ==== Proof.ContribAlgebra.lean ====
/- The kernel's stored number and the reference's contribution are one function of a field point's four numbers.

   Both programs compute, for a field point with numbers v, xr, yr, sc and a window cell (a, b), the same quantities
   px, py, the rounded centre, the cell coordinates, the squared distances, the spread — spelt alike up to the names of
   the operations. They differ in five places, each settled by a small lemma below:
   the window offset k - 13 against (-13) + k, one 32-bit word; a one-bit condition turned into the float 1 or 0 and
   multiplied, against the conjunction of the bits; "the product of two such floats exceeds 1/2" against the conjunction;
   the product of the condition floats with the value and the weight against a selection on the conjunction of the
   bits, with 0 outside it (0 * x = 0 and 1 * x = x for every extended real x); and v * (1/16) against (v / 16) * 1.
   Nothing here needs the numbers to be finite. -/
import proofs.«140136_j738734375140_2_alg».proof.Proof.KerContrib
import proofs.«140136_j738734375140_2_alg».proof.Proof.RefContrib
import Idealize.ShloMosaic.PureOps.Ideal
import Idealize.ShloMosaic.Lib.ValueIdx

noncomputable section

namespace Cert.ContribAlgebra

open Cert.KernelIdeal.KerContrib Cert.ReferenceIdeal.RefContrib Idealize.ShloMosaic Idealize.ShloMosaic.ValueIdx

/-! ## The float words the algebra has to evaluate -/

/-- The word of +0.0 denotes 0. -/
theorem lit_zero : Ideal.ofBits .f32 0x00000000#32 = 0 := by
  simp [Ideal.ofBits, Ideal.ieee]
/-- The word of 1.0 denotes 1. -/
theorem lit_one : Ideal.ofBits .f32 0x3F800000#32 = 1 := by
  simp [Ideal.ofBits, Ideal.ieee, -EReal.coe_mul]; norm_num
/-- The word of 0.5 denotes 1/2. -/
theorem lit_half : Ideal.ofBits .f32 0x3F000000#32 = ((1 / 2 : ℝ) : EReal) := by
  simp [Ideal.ofBits, Ideal.ieee, -EReal.coe_mul]; norm_num
/-- The word of 16.0 denotes 16. -/
theorem lit_sixteen : Ideal.ofBits .f32 0x41800000#32 = ((16 : ℝ) : EReal) := by
  simp [Ideal.ofBits, Ideal.ieee, -EReal.coe_mul]; norm_num
/-- The word of 0.0625 denotes 1/16. -/
theorem lit_sixteenth : Ideal.ofBits .f32 0x3D800000#32 = ((1 / 16 : ℝ) : EReal) := by
  simp [Ideal.ofBits, Ideal.ieee, -EReal.coe_mul]; norm_num

/-! ## (1) The same quantities under two spellings -/

theorem kerPx_eq (xr : Ideal .f32) : kerPx xr = refPx xr := rfl
theorem kerPy_eq (yr : Ideal .f32) : kerPy yr = refPy yr := rfl
theorem kerSigma_eq (sc : Ideal .f32) : kerSigma sc = refSigma sc := rfl
theorem kerSigma2_eq (sc : Ideal .f32) : kerSigma2 sc = refSigma2 sc := rfl
theorem kerCx_eq (xr : Ideal .f32) : kerCx xr = refCx xr := rfl
theorem kerCy_eq (yr : Ideal .f32) : kerCy yr = refCy yr := rfl
theorem kerValidBit_eq (v sc : Ideal .f32) : kerValidBit v sc = refKeep v sc := rfl

/-! ## (2) The window offsets, and what is built on them -/

/-- k - 13 and (-13) + k are one 32-bit word. -/
theorem kerOff_eq (k : Fin 27) : kerOff k = refOff k := by
  have h13 : (-13#32 : BitVec 32) = 4294967283#32 := by decide
  unfold kerOff refOff IntOp.subi IntOp.addi
  rw [BitVec.sub_eq_add_neg, BitVec.add_comm, h13]

/-- The cell's x coordinate. -/
theorem coordX_eq (xr : Ideal .f32) (b : Fin 27) : kerCoord (kerCx xr) b = refXX xr b := by
  unfold kerCoord refXX
  rw [kerOff_eq]; rfl
/-- The cell's y coordinate. -/
theorem coordY_eq (yr : Ideal .f32) (a : Fin 27) : kerCoord (kerCy yr) a = refYY yr a := by
  unfold kerCoord refYY
  rw [kerOff_eq]; rfl

/-- The squared distance along x. -/
theorem kerDx2_eq (xr : Ideal .f32) (b : Fin 27) : kerDx2 xr b = refDx2 xr b := by
  unfold kerDx2 kerDsq kerDiff
  rw [coordX_eq]; rfl
/-- The squared distance along y. -/
theorem kerDy2_eq (yr : Ideal .f32) (a : Fin 27) : kerDy2 yr a = refDy2 yr a := by
  unfold kerDy2 kerDsq kerDiff
  rw [coordY_eq]; rfl
/-- The squared distance to the cell. -/
theorem kerD2_eq (xr yr : Ideal .f32) (a b : Fin 27) : kerD2 xr yr a b = refD2 xr yr a b := by
  unfold kerD2 refD2
  rw [kerDy2_eq, kerDx2_eq]

/-- The within-reach bit. -/
theorem kerMask_eq (xr yr sc : Ideal .f32) (a b : Fin 27) :
    kerMask xr yr sc a b = Ideal.cmp .ole (refD2 xr yr a b) (refRad sc) := by
  unfold kerMask kerNearBit
  rw [kerD2_eq]; rfl
/-- The row lies in the image. -/
theorem inY_eq (yr : Ideal .f32) (a : Fin 27) :
    IntOp.andi (IntOp.cmpi .sge (kerCoord (kerCy yr) a) 0#32) (IntOp.cmpi .slt (kerCoord (kerCy yr) a) 300#32)
      = refInY yr a := by
  rw [coordY_eq]; rfl
/-- The column lies in the image. -/
theorem inX_eq (xr : Ideal .f32) (b : Fin 27) :
    IntOp.andi (IntOp.cmpi .sge (kerCoord (kerCx xr) b) 0#32) (IntOp.cmpi .slt (kerCoord (kerCx xr) b) 400#32)
      = refInX xr b := by
  rw [coordX_eq]; rfl

/-! ## (3) A bit as a float -/

/-- The bit 1 as a float is 1. -/
theorem kerBitF_one : kerBitF 1#1 = 1 := by
  have h : (BitVec.setWidth 32 1#1).toInt = 1 := by decide
  show (((BitVec.setWidth 32 1#1).toInt : ℝ) : EReal) = 1
  rw [h]; simp
/-- The bit 0 as a float is 0. -/
theorem kerBitF_zero : kerBitF 0#1 = 0 := by
  have h : (BitVec.setWidth 32 0#1).toInt = 0 := by decide
  show (((BitVec.setWidth 32 0#1).toInt : ℝ) : EReal) = 0
  rw [h]; simp

/-- The product of two condition floats is the float of the conjunction. -/
theorem kerBitF_mul (c d : BitVec 1) : kerBitF c * kerBitF d = kerBitF (IntOp.andi c d) := by
  rcases BitVec.eq_zero_or_eq_one c with rfl | rfl <;> rcases BitVec.eq_zero_or_eq_one d with rfl | rfl
  · rw [show IntOp.andi 0#1 0#1 = 0#1 from by decide, kerBitF_zero, zero_mul]
  · rw [show IntOp.andi 0#1 1#1 = 0#1 from by decide, kerBitF_zero, zero_mul]
  · rw [show IntOp.andi 1#1 0#1 = 0#1 from by decide, kerBitF_zero, mul_zero]
  · rw [show IntOp.andi 1#1 1#1 = 1#1 from by decide, kerBitF_one, one_mul]

/-- A condition float exceeds 1/2 exactly when the condition holds. -/
theorem cmp_ogt_half (c : BitVec 1) :
    Ideal.cmp .ogt (kerBitF c) (Ideal.ofBits .f32 0x3F000000#32) = c := by
  rw [lit_half]
  rcases BitVec.eq_zero_or_eq_one c with rfl | rfl
  · have h : ¬ (((1 / 2 : ℝ) : EReal) < 0) :=
      not_lt.mpr (by exact_mod_cast (by norm_num : (0 : ℝ) ≤ 1 / 2))
    rw [kerBitF_zero]
    show BitVec.ofBool (decide (((1 / 2 : ℝ) : EReal) < 0)) = 0#1
    rw [decide_eq_false h]; rfl
  · have h : ((1 / 2 : ℝ) : EReal) < 1 := by exact_mod_cast (by norm_num : (1 / 2 : ℝ) < 1)
    rw [kerBitF_one]
    show BitVec.ofBool (decide (((1 / 2 : ℝ) : EReal) < 1)) = 1#1
    rw [decide_eq_true h]; rfl

/-- The nearest-cell bit is the conjunction of the two axis bits. -/
theorem kerNearestBit_eq (dy2 dx2 : Ideal .f32) :
    kerNearestBit dy2 dx2
      = IntOp.andi (Ideal.cmp .olt dy2 (Ideal.ofBits .f32 0x3E800000#32))
          (Ideal.cmp .olt dx2 (Ideal.ofBits .f32 0x3E800000#32)) := by
  unfold kerNearestBit
  rw [kerBitF_mul]
  exact cmp_ogt_half _

/-! ## (4) The product of the condition floats against the selection on the conjunction -/

theorem mask_mul (m iy ix k : BitVec 1) (val g : Ideal .f32) :
    (((kerBitF m * (kerBitF iy * kerBitF ix)) * kerBitF k) * val) * g
      = Scalar.select (IntOp.andi (IntOp.andi m (IntOp.andi iy ix)) k) (val * g) 0 := by
  rw [kerBitF_mul, kerBitF_mul, kerBitF_mul]
  rcases BitVec.eq_zero_or_eq_one (IntOp.andi (IntOp.andi m (IntOp.andi iy ix)) k) with h | h
  · rw [h, kerBitF_zero, zero_mul, zero_mul, select_zero]
  · rw [h, kerBitF_one, one_mul, select_one]

/-! ## (5) The value -/

/-- v * (1/16) is (v / 16) * 1, for every extended real v. -/
theorem kerVal_eq (v : Ideal .f32) : kerVal v = refValue v := by
  unfold kerVal refValue
  rw [lit_sixteenth, lit_sixteen, lit_one, Ideal.div_coe (by norm_num : (16 : ℝ) ≠ 0), mul_one]

/-! ## (6) The weight -/

theorem kerG_eq (xr yr sc : Ideal .f32) (a b : Fin 27) :
    kerG (kerDy2 yr a) (kerDx2 xr b) (kerD2 xr yr a b) (kerSigma2 sc) = refG xr yr sc a b := by
  rw [kerDy2_eq, kerDx2_eq, kerD2_eq]
  unfold kerG refG
  rw [kerNearestBit_eq]
  rfl

/-! ## The two numbers are equal -/

theorem kerAt_eq_refAt (v xr yr sc : Ideal .f32) (a b : Fin 27) : kerAt v xr yr sc a b = refAt v xr yr sc a b := by
  unfold kerAt kerOut refAt
  rw [kerG_eq, kerVal_eq]
  unfold kerInb kerInRange kerValid
  rw [mask_mul, kerMask_eq, inY_eq, inX_eq, kerValidBit_eq, lit_zero]
  rfl

end Cert.ContribAlgebra
-- ==== Proof.Bridge.lean ====
/-
  The kernel program's result, and that it is the reference's.

  After the grid, the program's host lines slice the 38 true rows of the grid's output, recompute from `x` the
  scatter positions — for field point (f, h, w) and window cell (a, b) the flat position
  (f·300 + clip(cy + a − 13, 0, 299))·400 + clip(cx + b − 13, 0, 399), cx, cy the rounded hr-grid coordinates —,
  add every contribution into `cifhr` at its position and clamp at one. The reference does the same with its own
  contribution array, line for line. So the two results are one function of (cifhr, x, contributions), and the claim
  reduces to: the two contribution arrays are equal, entry by entry.
  Entry (f, h, w, a, b), h < 38, of the grid's output is the body's arithmetic of the four channel entries
  v, x, y, s of `x` at (f, h, w) (the padding rows are never read for h < 38); the reference's entry is its own
  arithmetic of the same four numbers. The two differ in how the truncation / bounds / validity conditions enter — the
  kernel multiplies 0/1 factors where the reference selects — and in v·(1/16) against (v/16)·1: equal on all extended
  reals, since 0·t = 0 and 1·t = t for every t.
-/
import proofs.«140136_j738734375140_2_alg».proof.Proof.IdealValue
import proofs.«140136_j738734375140_2_alg».proof.Proof.KerContrib
import proofs.«140136_j738734375140_2_alg».proof.Proof.RefContrib
import proofs.«140136_j738734375140_2_alg».proof.Proof.TailBridge
import proofs.«140136_j738734375140_2_alg».proof.Proof.ContribAlgebra
import proofs.«140136_j738734375140_2_alg».proof.Proof.Gen.ReferenceIdeal.Read
import Idealize.ShloMosaic.Lib.Pipeline.Value
import Idealize.ShloMosaic.Lib.ValueIdx

set_option maxRecDepth 16384

noncomputable section

namespace Cert.KernelIdeal.Around

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.KerContrib (kerAt payOf_at)
open Cert.ReferenceIdeal.RefContrib (refAt val_main_v110_at)
open Cert.KernelIdeal.TailBridge (refFinish ref_result tail_value)

variable (m : (ℓ : Loc nD τ sig) → Buf (Elt Ideal) ℓ) (ρ : Dev nD → PrngReg)

/-! ## One entry of the grid's output -/

theorem kerAt_congr {v v' xr xr' yr yr' sc sc' : Ideal .f32} {a a' b b' : Fin 27}
    (hv : v = v') (hx : xr = xr') (hy : yr = yr') (hs : sc = sc') (ha : a = a') (hb : b = b') :
    kerAt v xr yr sc a b = kerAt v' xr' yr' sc' a' b' := by subst hv hx hy hs ha hb; rfl

/-- Entry (f, h, w, a, b) of the output array is the body's scalar arithmetic of the four channel entries of the padded
    input at (f, h, w): the slab rows 8⌊h/8⌋ … and the row h mod 8 inside them name row h again. -/
theorem G_at (xp : S17x5x40x50.Idx → Elt Ideal .f32) (f : Fin 17) (h : Fin 40) (w : Fin 50) (a b : Fin 27) :
    G xp (ix5 f h w a b)
      = kerAt (xp (ix4 f (0 : Fin 5) h w)) (xp (ix4 f (1 : Fin 5) h w)) (xp (ix4 f (2 : Fin 5) h w)) (xp (ix4 f (4 : Fin 5) h w)) a b := by
  have hh : h.val < 40 := h.isLt
  unfold G
  refine (payOf_at _ _ _ _ (⟨h.val % 8, Nat.mod_lt _ (by decide)⟩ : Fin 8) (⟨w.val, w.isLt⟩ : Fin 50) (⟨a.val, a.isLt⟩ : Fin 27) (⟨b.val, b.isLt⟩ : Fin 27)).trans ?_
  refine kerAt_congr ?_ ?_ ?_ ?_ rfl rfl
  all_goals
    refine congrArg xp (funext fun d => Fin.ext ?_)
    match d with
    | ⟨0, _⟩ => rfl
    | ⟨1, _⟩ => rfl
    | ⟨2, _⟩ => show h.val / 8 * 8 + h.val % 8 = h.val; omega
    | ⟨3, _⟩ => rfl

/-! ## The sliced output is the reference's contribution array -/

/-- Rows 0 … 37 of the grid's output, entry by entry: the body's arithmetic of `x` there, which is the reference's. -/
theorem slice_eq (c : Dev nD) :
    extractStridedSlice S17x38x50x27x27 ![0, 0, 0, 0, 0] (G (V m c main_v0)) slices_S17x40x50x27x27_S17x38x50x27x27_0_0_0_0_0
      = Cert.ReferenceIdeal.Read.val_main_v110 (F := Ideal) (m ((c : Thread nD τ).loc main_arg1)) := by
  funext j
  obtain ⟨f, h, w, a, b, rfl⟩ : ∃ (f : Fin 17) (h : Fin 38) (w : Fin 50) (a b : Fin 27), j = ix5 f h w a b :=
    ⟨j 0, j 1, j 2, j 3, j 4, eq_ix5 j⟩
  have hh : h.val < 38 := h.isLt
  rw [val_main_v110_at, ← Cert.ContribAlgebra.kerAt_eq_refAt]
  rw [extractStridedSlice_apply ![0, 0, 0, 0, 0] _ slices_S17x40x50x27x27_S17x38x50x27x27_0_0_0_0_0 (ix5 f h w a b)
    (ix5 f (⟨h.val, by omega⟩ : Fin 40) w a b) (fun d => match d with
      | ⟨0, _⟩ => by show f.val = 0 + f.val; omega
      | ⟨1, _⟩ => by show h.val = 0 + h.val; omega
      | ⟨2, _⟩ => by show w.val = 0 + w.val; omega
      | ⟨3, _⟩ => by show a.val = 0 + a.val; omega
      | ⟨4, _⟩ => by show b.val = 0 + b.val; omega)]
  rw [G_at, xp_at, xp_at, xp_at, xp_at]

/-! ## The program's result -/

/-- What the result buffer holds at the end, on core `c`. -/
def result (c : Dev nD) : Buf (Elt Ideal) ((c.tc : Thread nD τ).loc main_v55) :=
  refFinish (m ((c : Thread nD τ).loc main_arg0)) (m ((c : Thread nD τ).loc main_arg1))
    (Cert.ReferenceIdeal.Read.val_main_v110 (F := Ideal) (m ((c : Thread nD τ).loc main_arg1)))

/-- The later host lines turn the grid's output and the two arguments into the result. -/
theorem end_main_v55 (c : Dev nD) :
    Pipeline.afterTail₀ cfgs (dats m) 0 (V0 m) [hostOps1, hostOps1_1, hostOps1_2, hostOps1_3, hostOps1_4, hostOps1_5, hostOps1_6, hostOps1_7, hostOps1_8] c main_v55 = result m c := by
  unfold Pipeline.afterTail₀
  rw [tail_value]
  have e0 : Pipeline.withArrays spec0 c (V0 m c) (fun w => (dats m 0 c).arrAt w cfg0.N) (Proc.devRef .tc main_arg0)
      = m ((c : Thread nD τ).loc main_arg0) :=
    (Pipeline.withArrays_of_ne spec0 c (V0 m c) _ main_arg0 (by decide)).trans (V_main_arg0 m c)
  have e1 : Pipeline.withArrays spec0 c (V0 m c) (fun w => (dats m 0 c).arrAt w cfg0.N) (Proc.devRef .tc main_arg1)
      = m ((c : Thread nD τ).loc main_arg1) :=
    (Pipeline.withArrays_of_ne spec0 c (V0 m c) _ main_arg1 (by decide)).trans (V_main_arg1 m c)
  have e2 : Pipeline.withArrays spec0 c (V0 m c) (fun w => (dats m 0 c).arrAt w cfg0.N) (Proc.devRef .tc main_v1)
      = G (V m c main_v0) :=
    (Pipeline.withArrays_arr spec0 launch0.win.arr_inj c (V0 m c) (fun w => (dats m 0 c).arrAt w cfg0.N) 1).trans (final_out m c)
  rw [e0, e1, e2, slice_eq]
  rfl

/-- THE RUN, with the result named: every weakly fair execution terminates with the result buffer at `result` and
    both arguments unchanged. -/
theorem run_value : θ_run defs (onTc (τ := τ) (main (F := Ideal))) ⟨m, fun _ => 0, ρ⟩ (fun r => ∀ c : Dev nD,
      r.2.mem ((c.tc : Thread nD τ).loc main_v55) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v55 (Pipeline.mem_restRefs_of main_v55 (by decide) (by decide))).trans (end_main_v55 m c),
     ((h c).2 main_arg0 (Pipeline.mem_restRefs_of main_arg0 (by decide) (by decide))).trans (end_main_arg0 m c),
     ((h c).2 main_arg1 (Pipeline.mem_restRefs_of main_arg1 (by decide) (by decide))).trans (end_main_arg1 m c)⟩) (run_main m ρ)

end Cert.KernelIdeal.Around

end
-- ==== Proof.lean ====
/-
  A decayed-intensity heatmap splat: for each of 17 fields, every point (h, w) of a 38 × 50 grid carries a confidence
  v, a position (x, y) and a scale s; it adds v/16 · g into a 27 × 27 window of a 300 × 400 map around the rounded
  position (8x, 8y), where g = 1 at the nearest cell and (1 − d²/(16σ²))⁸ elsewhere (d² the squared distance to the
  position, σ = max(1, 4s)), only inside the radius 2σ, inside the map, and for v ≥ 0.1; the map is clamped at one.

  The kernel program computes the 17 × 38 × 50 × 27 × 27 contributions on a 17 × 5 grid of row blocks of a zero-padded
  copy of the field array (40 rows), then slices, scatters and clamps on the host; the reference computes the same
  contributions on the host. Claimed and proved here:
    * each of the three programs terminates without a fault and leaves its two argument arrays unchanged;
    * the idealized kernel program is the kernel program's own text read over the extended reals (nothing rewritten);
    * over the extended reals, from equal arguments, the two idealized programs end with equal maps.
  The kernel programs' runs are in BitsRun / IdealRun (the grid point by point, the host lines around it), the grid's
  output array as one function of the padded input in IdealValue, the body's and the reference's arithmetic at one
  entry in KerContrib / RefContrib, their equality in ContribAlgebra, the shared host lines in TailBridge, and the
  assembly in Bridge.
-/
import proofs.«140136_j738734375140_2_alg».proof.Defs
import proofs.«140136_j738734375140_2_alg».proof.Proof.Gen.Kernel
import proofs.«140136_j738734375140_2_alg».proof.Proof.Gen.KernelIdeal
import proofs.«140136_j738734375140_2_alg».proof.Proof.Gen.ReferenceIdeal
import proofs.«140136_j738734375140_2_alg».proof.Proof.Gen.Pre_finite_inputs
import proofs.«140136_j738734375140_2_alg».proof.Proof.Gen.ReferenceIdeal.Run
import proofs.«140136_j738734375140_2_alg».proof.Proof.Gen.ReferenceIdeal.Read
import proofs.«140136_j738734375140_2_alg».proof.Proof.BitsRun
import proofs.«140136_j738734375140_2_alg».proof.Proof.Bridge
import Idealize.ShloMosaic.Adequacy
import Idealize.ShloMosaic.Init

noncomputable section

namespace Cert.Proof

open Idealize.ShloMosaic Idealize.SL.Sem

/-- The kernel program, word by word: it runs to the end and keeps its arguments. -/
theorem frame_kernel : Cert.frame_Kernel := fun m ρ _ => Cert.Kernel.Around.frame m ρ

/-- The same program over the extended reals. -/
theorem frame_kernel_ideal : Cert.frame_KernelIdeal := fun m ρ _ => Cert.KernelIdeal.Around.frame m ρ

/-- The reference is host lines only: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From equal arguments both programs end at the reference's closing lines applied to one contribution array. -/
theorem algebraic : Cert.algebraic_KernelIdeal_ReferenceIdeal := by
  intro m ρ m' ρ' _ hagree
  refine ⟨fun c => Cert.KernelIdeal.Around.result m c, Cert.KernelIdeal.Around.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v138_eq, (hagree c).1, (hagree c).2, Cert.KernelIdeal.TailBridge.ref_result]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
